-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v41)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v41) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v64) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S512x128 : Shape := ⟨2, ![512, 128]⟩
abbrev S128 : Shape := ⟨1, ![128]⟩
abbrev S128x2 : Shape := ⟨2, ![128, 2]⟩
abbrev S2 : Shape := ⟨1, ![2]⟩
abbrev S1600000 : Shape := ⟨1, ![1600000]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x2 : S_.BroadcastsInDim S128x2 (![] : Fin 0 → Fin S128x2.rank)
  reducesTo_S128x2_S_d0_1 : S128x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg4 : FVec F S2 .f32) (main_v13 : IVec S_ 1) (main_v16 : IVec S128x2 1) : IVec S_ 1 :=
  let main_c_5 : IVec S_ 1 := constantI S_ 1 1#1
  let main_v17 : IVec S_ 1 := (fun x v => Host.reduce IntOp.andi x v reducesTo_S128x2_S_d0_1 h_S_) main_v16 main_c_5
  let main_v18 : IVec S_ 1 := andi main_v13 main_v17
  let main_v19 : FVec F S2 .f32 := Host.absf main_arg4
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x512 .f32) (main_arg1 : FVec F S512x128 .f32) (main_arg2 : FVec F S128 .f32) (main_arg3 : FVec F S128x2 .f32) (main_arg4 : FVec F S2 .f32) (main_arg5 : IVec S1600000 32) (main_arg6 : IVec S1600000 32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S512x128 .f32 := Host.absf main_arg1
  let main_cst_0 : FVec F S_ .f32 := constant S_ .f32 0x7F800000#32
  let main_v5 : FVec F S512x128 .f32 := broadcastInDim S512x128 ![] bcast_S_S512x128 main_cst_0
  let main_v6 : IVec S512x128 1 := cmpf .olt main_v4 main_v5
  let main_c_1 : IVec S_ 1 := constantI S_ 1 1#1
  let main_v7 : IVec S_ 1 := (fun x v => Host.reduce IntOp.andi x v reducesTo_S512x128_S_d0_1 h_S_) main_v6 main_c_1
  let main_v8 : IVec S_ 1 := andi main_v3 main_v7
  let main_v9 : FVec F S128 .f32 := Host.absf main_arg2
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x2 .f32 := Host.absf main_arg3
  let main_cst_4 : FVec F S_ .f32 := constant S_ .f32 0x7F800000#32
  let main_v15 : FVec F S128x2 .f32 := broadcastInDim S128x2 ![] bcast_S_S128x2 main_cst_4
  let main_v16 : IVec S128x2 1 := cmpf .olt main_v14 main_v15
  fn_part1 (F := F) main_arg4 main_v13 main_v16
-- ==== Kernel.lean ====
abbrev S100000x512 : Shape := ⟨2, ![100000, 512]⟩
abbrev S512x128 : Shape := ⟨2, ![512, 128]⟩
abbrev S128 : Shape := ⟨1, ![128]⟩
abbrev S128x2 : Shape := ⟨2, ![128, 2]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x1 : Shape := ⟨2, ![100000, 1]⟩
abbrev S100000x128 : Shape := ⟨2, ![100000, 128]⟩
abbrev S2000x512 : Shape := ⟨2, ![2000, 512]⟩
abbrev S2000x1 : Shape := ⟨2, ![2000, 1]⟩
abbrev S2000x128 : Shape := ⟨2, ![2000, 128]⟩
abbrev S1600000x128 : Shape := ⟨2, ![1600000, 128]⟩
abbrev S1x128 : Shape := ⟨2, ![1, 128]⟩
abbrev S100000x2 : Shape := ⟨2, ![100000, 2]⟩
abbrev S2000x2 : Shape := ⟨2, ![2000, 2]⟩
abbrev S1600000x2 : Shape := ⟨2, ![1600000, 2]⟩
abbrev S1x2 : Shape := ⟨2, ![1, 2]⟩
abbrev S2000 : Shape := ⟨1, ![2000]⟩

abbrev nBuf : Space → Nat
  | .hbm => 60
  | .vmem => 24
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x1, .f32⟩
  | .hbm, ⟨26, _⟩ => ⟨S100000x128, .f32⟩
  | .hbm, ⟨27, _⟩ => ⟨S_, .i32⟩
  | .hbm, ⟨28, _⟩ => ⟨S1600000, .i32⟩
  | .hbm, ⟨29, _⟩ => ⟨S1600000, .i1⟩
  | .hbm, ⟨30, _⟩ => ⟨S_, .i32⟩
  | .hbm, ⟨31, _⟩ => ⟨S1600000, .i32⟩
  | .hbm, ⟨32, _⟩ => ⟨S1600000, .i32⟩
  | .hbm, ⟨33, _⟩ => ⟨S1600000, .i32⟩
  | .hbm, ⟨34, _⟩ => ⟨S1600000x1, .i32⟩
  | .hbm, ⟨35, _⟩ => ⟨S1600000x128, .f32⟩
  | .hbm, ⟨36, _⟩ => ⟨S_, .f32⟩
  | .hbm, ⟨37, _⟩ => ⟨S100000x128, .f32⟩
  | .hbm, ⟨38, _⟩ => ⟨S1600000x1, .i32⟩
  | .hbm, ⟨39, _⟩ => ⟨S100000x128, .f32⟩
  | .hbm, ⟨40, _⟩ => ⟨S100000x1, .f32⟩
  | .hbm, ⟨41, _⟩ => ⟨S100000x1, .f32⟩
  | .hbm, ⟨42, _⟩ => ⟨S1x128, .f32⟩
  | .hbm, ⟨43, _⟩ => ⟨S100000x2, .f32⟩
  | .hbm, ⟨44, _⟩ => ⟨S_, .i32⟩
  | .hbm, ⟨45, _⟩ => ⟨S1600000, .i32⟩
  | .hbm, ⟨46, _⟩ => ⟨S1600000, .i1⟩
  | .hbm, ⟨47, _⟩ => ⟨S_, .i32⟩
  | .hbm, ⟨48, _⟩ => ⟨S1600000, .i32⟩
  | .hbm, ⟨49, _⟩ => ⟨S1600000, .i32⟩
  | .hbm, ⟨50, _⟩ => ⟨S1600000, .i32⟩
  | .hbm, ⟨51, _⟩ => ⟨S1600000x1, .i32⟩
  | .hbm, ⟨52, _⟩ => ⟨S1600000x2, .f32⟩
  | .hbm, ⟨53, _⟩ => ⟨S_, .f32⟩
  | .hbm, ⟨54, _⟩ => ⟨S100000x2, .f32⟩
  | .hbm, ⟨55, _⟩ => ⟨S1600000x1, .i32⟩
  | .hbm, ⟨56, _⟩ => ⟨S100000x2, .f32⟩
  | .hbm, ⟨57, _⟩ => ⟨S100000x1, .f32⟩
  | .hbm, ⟨58, _⟩ => ⟨S1x2, .f32⟩
  | .hbm, ⟨59, _⟩ => ⟨S100000x2, .f32⟩
  | .local _ .vmem, ⟨0, _⟩ => ⟨S2000x512, .f32⟩
  | .local _ .vmem, ⟨1, _⟩ => ⟨S2000x512, .f32⟩
  | .local _ .vmem, ⟨2, _⟩ => ⟨S512x128, .f32⟩
  | .local _ .vmem, ⟨3, _⟩ => ⟨S2000x1, .f32⟩
  | .local _ .vmem, ⟨4, _⟩ => ⟨S2000x1, .f32⟩
  | .local _ .vmem, ⟨5, _⟩ => ⟨S2000x128, .f32⟩
  | .local _ .vmem, ⟨6, _⟩ => ⟨S2000x128, .f32⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S128x2, .f32⟩
  | .local _ .vmem, ⟨13, _⟩ => ⟨S2000x1, .f32⟩
  | .local _ .vmem, ⟨14, _⟩ => ⟨S2000x1, .f32⟩
  | .local _ .vmem, ⟨15, _⟩ => ⟨S2000x2, .f32⟩
  | .local _ .vmem, ⟨16, _⟩ => ⟨S2000x2, .f32⟩
  | .local _ .vmem, ⟨17, _⟩ => ⟨S2000x2, .f32⟩
  | .local _ .vmem, ⟨18, _⟩ => ⟨S2000x2, .f32⟩
  | .local _ .vmem, ⟨19, _⟩ => ⟨S2000x1, .f32⟩
  | .local _ .vmem, ⟨20, _⟩ => ⟨S2000x1, .f32⟩
  | .local _ .vmem, ⟨21, _⟩ => ⟨S1x2, .f32⟩
  | .local _ .vmem, ⟨22, _⟩ => ⟨S2000x2, .f32⟩
  | .local _ .vmem, ⟨23, _⟩ => ⟨S2000x2, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_4 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst_5 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_c_6 : Ref sig .tc := ⟨.hbm, 44, rfl⟩
abbrev main_v29 : Ref sig .tc := ⟨.hbm, 45, rfl⟩
abbrev main_v30 : Ref sig .tc := ⟨.hbm, 46, rfl⟩
abbrev main_c_7 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_8 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg4_1 : Ref sig .tc := ⟨.vmem, 14, rfl⟩
abbrev cc1_stg5_0 : Ref sig .tc := ⟨.vmem, 15, rfl⟩
abbrev cc1_stg5_1 : Ref sig .tc := ⟨.vmem, 16, rfl⟩
abbrev cc2_stg0_0 : Ref sig .tc := ⟨.vmem, 17, rfl⟩
abbrev cc2_stg0_1 : Ref sig .tc := ⟨.vmem, 18, rfl⟩
abbrev cc2_stg1_0 : Ref sig .tc := ⟨.vmem, 19, rfl⟩
abbrev cc2_stg1_1 : Ref sig .tc := ⟨.vmem, 20, rfl⟩
abbrev cc2_stg2_0 : Ref sig .tc := ⟨.vmem, 21, rfl⟩
abbrev cc2_stg3_0 : Ref sig .tc := ⟨.vmem, 22, rfl⟩
abbrev cc2_stg3_1 : Ref sig .tc := ⟨.vmem, 23, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem4_0 : DmaSem sig := 13
abbrev cc1_sem4_1 : DmaSem sig := 14
abbrev cc1_sem5_0 : DmaSem sig := 15
abbrev cc1_sem5_1 : DmaSem sig := 16
abbrev cc2_sem0_0 : DmaSem sig := 17
abbrev cc2_sem0_1 : DmaSem sig := 18
abbrev cc2_sem1_0 : DmaSem sig := 19
abbrev cc2_sem1_1 : DmaSem sig := 20
abbrev cc2_sem2_0 : DmaSem sig := 21
abbrev cc2_sem3_0 : DmaSem sig := 22
abbrev cc2_sem3_1 : DmaSem sig := 23

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S512x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x2 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S2000x2 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x2 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x2 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x2 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  shapeCasts_S100000_S100000x1 : S100000.ShapeCasts S100000x1
  inb_S2000x512_S2000x512_0_0 : ∀ a, (![0, 0] : Fin 2 → Nat) a + S2000x512.size a ≤ S2000x512.size a
  h_S2000x512 : 0 < S2000x512.numel
  inb_S512x128_S512x128_0_0 : ∀ a, (![0, 0] : Fin 2 → Nat) a + S512x128.size a ≤ S512x128.size a
  h_S512x128 : 0 < S512x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  inb_S2000x128_S2000x128_0_0 : ∀ a, (![0, 0] : Fin 2 → Nat) a + S2000x128.size a ≤ S2000x128.size a
  h_S2000x128 : 0 < S2000x128.numel
  bcast_S_S100000x128 : S_.BroadcastsInDim S100000x128 (![] : Fin 0 → Fin S100000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x2_S128x2_0_0 : ∀ a, (![0, 0] : Fin 2 → Nat) a + S128x2.size a ≤ S128x2.size a
  h_S128x2 : 0 < S128x2.numel
  broadcasts_S2000x1_S2000x2 : S2000x1.Broadcasts S2000x2
  inb_S2000x2_S2000x2_0_0 : ∀ a, (![0, 0] : Fin 2 → Nat) a + S2000x2.size a ≤ S2000x2.size a
  h_S2000x2 : 0 < S2000x2.numel
  bcast_S_S100000x2 : S_.BroadcastsInDim S100000x2 (![] : Fin 0 → Fin S100000x2.rank)
  shapeCasts_S2_S1x2 : S2.ShapeCasts S1x2
  shapeCasts_S2000x2_S2000x2 : S2000x2.ShapeCasts S2000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S2000x2 : S1x2.Broadcasts S2000x2
  reduces_S2000x2_S2000 : S2000x2.Reduces [1] S2000
  shapeCasts_S2000_S2000x1 : S2000.ShapeCasts S2000x1
  scatter_S100000_S1600000x1_S1600000_n_0_0_1_wf : ScatterDims.WF S100000 S1600000x1 S1600000 [] [0] [0] 1
  dot_S2000x512_S512x128_S2000x128_1_0_0_1_n_n_wf : DotDims.WF S2000x512 S512x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x2_S2000x2_1_0_0_1_n_n_wf : DotDims.WF S2000x128 S128x2 S2000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S512x128.size a ≤ S512x128.size a
  hwx0_1 : ∀ i : grid0.Coords, EltTy.bits .f32 = 32 ∨ (Rect.block (s := S512x128) S512x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S100000x1.size a
  hwx0_2 : ∀ i : grid0.Coords, EltTy.bits .f32 = 32 ∨ (Rect.block (s := S100000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S100000x128.size a
  hwx0_3 : ∀ i : grid0.Coords, EltTy.bits .f32 = 32 ∨ (Rect.block (s := S100000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S100000x1.size a
  hwx1_1 : ∀ i : grid1.Coords, EltTy.bits .f32 = 32 ∨ (Rect.block (s := S100000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x2.size a ≤ S128x2.size a
  hwx1_3 : ∀ i : grid1.Coords, EltTy.bits .f32 = 32 ∨ (Rect.block (s := S128x2) S128x2.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x1.size a ≤ S100000x1.size a
  hwx1_4 : ∀ i : grid1.Coords, EltTy.bits .f32 = 32 ∨ (Rect.block (s := S100000x1) S2000x1.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x2.size a ≤ S100000x2.size a
  hwx1_5 : ∀ i : grid1.Coords, EltTy.bits .f32 = 32 ∨ (Rect.block (s := S100000x2) S2000x2.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x2.size a ≤ S100000x2.size a
  hwx2_0 : ∀ i : grid2.Coords, EltTy.bits .f32 = 32 ∨ (Rect.block (s := S100000x2) S2000x2.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x1.size a ≤ S100000x1.size a
  hwx2_1 : ∀ i : grid2.Coords, EltTy.bits .f32 = 32 ∨ (Rect.block (s := S100000x1) S2000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x2.size a ≤ S1x2.size a
  hwx2_2 : ∀ i : grid2.Coords, EltTy.bits .f32 = 32 ∨ (Rect.block (s := S1x2) S1x2.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x2.size a ≤ S100000x2.size a
  hwx2_3 : ∀ i : grid2.Coords, EltTy.bits .f32 = 32 ∨ (Rect.block (s := S100000x2) S2000x2.size (cc2_transform_3 i) (hinb2_3 i)).WholeWords (EltTy.packing .f32)

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x2_S2000x2_1_0_0_1_n_n : DotDims S2000x128 S128x2 S2000x2 where
  lhsContracting := [1]
  rhsContracting := [0]
  lhsNonContracting := [0]
  rhsNonContracting := [1]
  lhsBatch := []
  rhsBatch := []
  wf := dot_S2000x128_S128x2_S2000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v13) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v14) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v24) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v25) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg3) S128x2.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v26) S2000x1.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v28) S2000x2.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v38) S2000x2.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v39) S2000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v40) S1x2.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v41) S2000x2.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x512 : Shape := ⟨2, ![100000, 512]⟩
abbrev S512x128 : Shape := ⟨2, ![512, 128]⟩
abbrev S128 : Shape := ⟨1, ![128]⟩
abbrev S128x2 : Shape := ⟨2, ![128, 2]⟩
abbrev S2 : Shape := ⟨1, ![2]⟩
abbrev S1600000 : Shape := ⟨1, ![1600000]⟩
abbrev S_ : Shape := ⟨0, ![]⟩
abbrev S100000 : Shape := ⟨1, ![100000]⟩
abbrev S1600000x1 : Shape := ⟨2, ![1600000, 1]⟩
abbrev S100000x128 : Shape := ⟨2, ![100000, 128]⟩
abbrev S100000x1 : Shape := ⟨2, ![100000, 1]⟩
abbrev S1600000x128 : Shape := ⟨2, ![1600000, 128]⟩
abbrev S1x128 : Shape := ⟨2, ![1, 128]⟩
abbrev S100000x2 : Shape := ⟨2, ![100000, 2]⟩
abbrev S1600000x2 : Shape := ⟨2, ![1600000, 2]⟩
abbrev S1x2 : Shape := ⟨2, ![1, 2]⟩

abbrev nBuf : Space → Nat
  | .hbm => 88
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S512x128, .f32⟩
  | .hbm, ⟨2, _⟩ => ⟨S128, .f32⟩
  | .hbm, ⟨3, _⟩ => ⟨S128x2, .f32⟩
  | .hbm, ⟨4, _⟩ => ⟨S2, .f32⟩
  | .hbm, ⟨5, _⟩ => ⟨S1600000, .i32⟩
  | .hbm, ⟨6, _⟩ => ⟨S1600000, .i32⟩
  | .hbm, ⟨7, _⟩ => ⟨S_, .f32⟩
  | .hbm, ⟨8, _⟩ => ⟨S1600000, .f32⟩
  | .hbm, ⟨9, _⟩ => ⟨S_, .f32⟩
  | .hbm, ⟨10, _⟩ => ⟨S100000, .f32⟩
  | .hbm, ⟨11, _⟩ => ⟨S1600000x1, .i32⟩
  | .hbm, ⟨12, _⟩ => ⟨S100000, .f32⟩
  | .hbm, ⟨13, _⟩ => ⟨S_, .f32⟩
  | .hbm, ⟨14, _⟩ => ⟨S100000, .f32⟩
  | .hbm, ⟨15, _⟩ => ⟨S1600000x1, .i32⟩
  | .hbm, ⟨16, _⟩ => ⟨S100000, .f32⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .f32⟩
  | .hbm, ⟨24, _⟩ => ⟨S100000, .f32⟩
  | .hbm, ⟨25, _⟩ => ⟨S100000x128, .f32⟩
  | .hbm, ⟨26, _⟩ => ⟨S100000x1, .f32⟩
  | .hbm, ⟨27, _⟩ => ⟨S100000x128, .f32⟩
  | .hbm, ⟨28, _⟩ => ⟨S100000x128, .f32⟩
  | .hbm, ⟨29, _⟩ => ⟨S_, .i32⟩
  | .hbm, ⟨30, _⟩ => ⟨S1600000, .i32⟩
  | .hbm, ⟨31, _⟩ => ⟨S1600000, .i1⟩
  | .hbm, ⟨32, _⟩ => ⟨S_, .i32⟩
  | .hbm, ⟨33, _⟩ => ⟨S1600000, .i32⟩
  | .hbm, ⟨34, _⟩ => ⟨S1600000, .i32⟩
  | .hbm, ⟨35, _⟩ => ⟨S1600000, .i32⟩
  | .hbm, ⟨36, _⟩ => ⟨S1600000x1, .i32⟩
  | .hbm, ⟨37, _⟩ => ⟨S1600000x128, .f32⟩
  | .hbm, ⟨38, _⟩ => ⟨S_, .f32⟩
  | .hbm, ⟨39, _⟩ => ⟨S100000x128, .f32⟩
  | .hbm, ⟨40, _⟩ => ⟨S1600000x1, .i32⟩
  | .hbm, ⟨41, _⟩ => ⟨S100000x128, .f32⟩
  | .hbm, ⟨42, _⟩ => ⟨S100000x1, .f32⟩
  | .hbm, ⟨43, _⟩ => ⟨S100000x128, .f32⟩
  | .hbm, ⟨44, _⟩ => ⟨S100000x128, .f32⟩
  | .hbm, ⟨45, _⟩ => ⟨S1x128, .f32⟩
  | .hbm, ⟨46, _⟩ => ⟨S100000x128, .f32⟩
  | .hbm, ⟨47, _⟩ => ⟨S100000x128, .f32⟩
  | .hbm, ⟨48, _⟩ => ⟨S_, .f32⟩
  | .hbm, ⟨49, _⟩ => ⟨S100000x128, .f32⟩
  | .hbm, ⟨50, _⟩ => ⟨S100000x128, .f32⟩
  | .hbm, ⟨51, _⟩ => ⟨S100000x2, .f32⟩
  | .hbm, ⟨52, _⟩ => ⟨S100000x1, .f32⟩
  | .hbm, ⟨53, _⟩ => ⟨S100000x2, .f32⟩
  | .hbm, ⟨54, _⟩ => ⟨S100000x2, .f32⟩
  | .hbm, ⟨55, _⟩ => ⟨S_, .i32⟩
  | .hbm, ⟨56, _⟩ => ⟨S1600000, .i32⟩
  | .hbm, ⟨57, _⟩ => ⟨S1600000, .i1⟩
  | .hbm, ⟨58, _⟩ => ⟨S_, .i32⟩
  | .hbm, ⟨59, _⟩ => ⟨S1600000, .i32⟩
  | .hbm, ⟨60, _⟩ => ⟨S1600000, .i32⟩
  | .hbm, ⟨61, _⟩ => ⟨S1600000, .i32⟩
  | .hbm, ⟨62, _⟩ => ⟨S1600000x1, .i32⟩
  | .hbm, ⟨63, _⟩ => ⟨S1600000x2, .f32⟩
  | .hbm, ⟨64, _⟩ => ⟨S_, .f32⟩
  | .hbm, ⟨65, _⟩ => ⟨S100000x2, .f32⟩
  | .hbm, ⟨66, _⟩ => ⟨S1600000x1, .i32⟩
  | .hbm, ⟨67, _⟩ => ⟨S100000x2, .f32⟩
  | .hbm, ⟨68, _⟩ => ⟨S100000x1, .f32⟩
  | .hbm, ⟨69, _⟩ => ⟨S100000x2, .f32⟩
  | .hbm, ⟨70, _⟩ => ⟨S100000x2, .f32⟩
  | .hbm, ⟨71, _⟩ => ⟨S1x2, .f32⟩
  | .hbm, ⟨72, _⟩ => ⟨S100000x2, .f32⟩
  | .hbm, ⟨73, _⟩ => ⟨S100000x2, .f32⟩
  | .hbm, ⟨74, _⟩ => ⟨S_, .f32⟩
  | .hbm, ⟨75, _⟩ => ⟨S100000, .f32⟩
  | .hbm, ⟨76, _⟩ => ⟨S_, .f32⟩
  | .hbm, ⟨77, _⟩ => ⟨S100000, .f32⟩
  | .hbm, ⟨78, _⟩ => ⟨S100000, .f32⟩
  | .hbm, ⟨79, _⟩ => ⟨S100000x1, .f32⟩
  | .hbm, ⟨80, _⟩ => ⟨S100000x2, .f32⟩
  | .hbm, ⟨81, _⟩ => ⟨S100000x2, .f32⟩
  | .hbm, ⟨82, _⟩ => ⟨S100000x2, .f32⟩
  | .hbm, ⟨83, _⟩ => ⟨S_, .f32⟩
  | .hbm, ⟨84, _⟩ => ⟨S100000, .f32⟩
  | .hbm, ⟨85, _⟩ => ⟨S100000x1, .f32⟩
  | .hbm, ⟨86, _⟩ => ⟨S100000x2, .f32⟩
  | .hbm, ⟨87, _⟩ => ⟨S100000x2, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_cst_0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_cst_2 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_3 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_c : Ref sig .tc := ⟨.hbm, 29, rfl⟩
abbrev main_v17 : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_call0_cst : Ref sig .tc := ⟨.hbm, 48, rfl⟩
abbrev main_call0_v0 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_c_6 : Ref sig .tc := ⟨.hbm, 55, rfl⟩
abbrev main_v38 : Ref sig .tc := ⟨.hbm, 56, rfl⟩
abbrev main_v39 : Ref sig .tc := ⟨.hbm, 57, rfl⟩
abbrev main_c_7 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_8 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_cst_9 : Ref sig .tc := ⟨.hbm, 74, rfl⟩
abbrev main_v54 : Ref sig .tc := ⟨.hbm, 75, rfl⟩
abbrev main_cst_10 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_cst_11 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_v64 : Ref sig .tc := ⟨.hbm, 87, rfl⟩

abbrev nD : Nat := 1
abbrev τ : Topo := Topo.v7x

variable {F : FTy → Type} [FloatOps F]

class Facts₀ : Prop where
  bcast_S_S1600000 : S_.BroadcastsInDim S1600000 (![] : Fin 0 → Fin S1600000.rank)
  bcast_S_S100000 : S_.BroadcastsInDim S100000 (![] : Fin 0 → Fin S100000.rank)
  bcast_S1600000_S1600000x1_0 : S1600000.BroadcastsInDim S1600000x1 (![0] : Fin 1 → Fin S1600000x1.rank)
  bcast_S100000_S100000x1_0 : S100000.BroadcastsInDim S100000x1 (![0] : Fin 1 → Fin S100000x1.rank)
  bcast_S100000x1_S100000x128_0_1 : S100000x1.BroadcastsInDim S100000x128 (![0, 1] : Fin 2 → Fin S100000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S100000x1_S100000x2_0_1 : S100000x1.BroadcastsInDim S100000x2 (![0, 1] : Fin 2 → Fin S100000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  scatter_S100000_S1600000x1_S1600000_n_0_0_1_wf : ScatterDims.WF S100000 S1600000x1 S1600000 [] [0] [0] 1
  dot_S100000x512_S512x128_S100000x128_1_0_0_1_n_n_wf : DotDims.WF S100000x512 S512x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x2_S100000x2_1_0_0_1_n_n_wf : DotDims.WF S100000x128 S128x2 S100000x2 [1] [0] [0] [1] [] []
  gather_S100000x2_S1600000x1_S1600000x2_1_0_n_n_0_1_12_wf : GatherDims.WF S100000x2 S1600000x1 S1600000x2 [1] [0] [] [0] [] 1 ![1, 2]
  scatter_S100000x2_S1600000x1_S1600000x2_1_0_0_1_wf : ScatterDims.WF S100000x2 S1600000x1 S1600000x2 [1] [0] [0] 1

variable [Facts₀]

def scatter_S100000_S1600000x1_S1600000_n_0_0_1 : ScatterDims S100000 S1600000x1 S1600000 where
  updateWindowDims := []
  insertedWindowDims := [0]
  scatterDimsToOperandDims := [0]
  indexVectorDim := 1
  wf := scatter_S100000_S1600000x1_S1600000_n_0_0_1_wf
def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x2_S100000x2_1_0_0_1_n_n : DotDims S100000x128 S128x2 S100000x2 where
  lhsContracting := [1]
  rhsContracting := [0]
  lhsNonContracting := [0]
  rhsNonContracting := [1]
  lhsBatch := []
  rhsBatch := []
  wf := dot_S100000x128_S128x2_S100000x2_1_0_0_1_n_n_wf
def gather_S100000x2_S1600000x1_S1600000x2_1_0_n_n_0_1_12 : GatherDims S100000x2 S1600000x1 S1600000x2 where
  offsetDims := [1]
  collapsedSliceDims := [0]
  operandBatchingDims := []
  startIndicesBatchingDims := []
  startIndexMap := [0]
  indexVectorDim := 1
  sliceSizes := ![1, 2]
  wf := gather_S100000x2_S1600000x1_S1600000x2_1_0_n_n_0_1_12_wf
def scatter_S100000x2_S1600000x1_S1600000x2_1_0_0_1 : ScatterDims S100000x2 S1600000x1 S1600000x2 where
  updateWindowDims := [1]
  insertedWindowDims := [0]
  scatterDimsToOperandDims := [0]
  indexVectorDim := 1
  wf := scatter_S100000x2_S1600000x1_S1600000x2_1_0_0_1_wf

class Facts : Prop extends Facts₀ where

variable [Facts]
-- ==== Proof.KernelRun.lean ====
/-
  The idealized kernel's run with its result named.

  The program is three tiled regions among stretches of host operations. Its run is the chain of those six segments
  from the launch memory; the buffers at each boundary are a fold through the program (the contents after a host
  stretch are the stretch's operations applied to the contents before it; after a region, the region's arrays hold
  what its write-backs leave and every other buffer what it held). The statement below is the chain's launch theorem
  read at the last boundary: every weakly fair execution terminates, the result array holds the last boundary's
  contents at the result's buffer, and the arguments end as launched.
-/
import proofs.«139141_j43722767073362_2_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of the program terminates without a fault; the result array then holds the contents
    of the last segment boundary at the result's buffer, and each argument array what it held at launch. -/
theorem run_out : θ_run defs (onTc (τ := τ) (main (F := F))) ⟨m, fun _ => 0, ρ⟩ (fun r => ∀ c : Dev nD,
      r.2.mem ((c.tc : Thread nD τ).loc main_v41) = W6 m ρ c (Proc.devRef .tc main_v41)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v41 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c)⟩)

end Cert.KernelIdeal.Whole

end
-- ==== Proof.Spec.lean ====
/-
  The three dense stages of a two-layer graph convolution, as functions of whole arrays, entry by entry.

  With rows indexed by nodes:

    * scaled product:   (X · W)[r, q] · s[r]            — a matrix product with each row scaled;
    * hidden layer:     (relu(A[r, ·] · d[r] + b) · W)[q] · s[r]
                                                         — a row scaled, shifted by the bias row, clipped below at
                                                           zero, multiplied into W, and the result row scaled;
    * row softmax:      exp(z[r, q] − max_r) / Σ_k exp(z[r, k] − max_r),  z[r, c] = A[r, c] · d[r] + b[c],
                        max_r the largest entry of row r of z.

  The scalings arrive as one-column matrices and the biases as one-row matrices. Each function is stated for any number
  of rows: a block of rows of the array computes the same function of the same rows of its operands (`*_rows`).
-/
import Idealize.ShloMosaic.PureOps.Ideal.Laws
import Idealize.ShloMosaic.Lib.ValueIdx

noncomputable section

open scoped BigOperators

namespace Cert.Gcn

open Idealize.ShloMosaic Idealize.ShloMosaic.ValueIdx

/-- The zero the hidden layer clips at, and the least extended real the row maximum starts from, as the programs
    spell them. -/
abbrev zeroF : EReal := Ideal.ofBits .f32 0x00000000#32
abbrev negInfF : EReal := Ideal.ofBits .f32 0xFF800000#32

variable {M K N : Nat}

/-- Entry (r, q) of the scaled product. -/
def prodScaleAt (X : (⟨2, ![M, K]⟩ : Shape).Idx → EReal) (W : (⟨2, ![K, N]⟩ : Shape).Idx → EReal)
    (s : (⟨2, ![M, 1]⟩ : Shape).Idx → EReal) (r : Fin M) (q : Fin N) : EReal :=
  (∑ k : Fin K, X (ix2 r k) * W (ix2 k q)) * s (ix2 r (0 : Fin 1))

/-- The scaled product as an array. -/
def prodScale (X : (⟨2, ![M, K]⟩ : Shape).Idx → EReal) (W : (⟨2, ![K, N]⟩ : Shape).Idx → EReal)
    (s : (⟨2, ![M, 1]⟩ : Shape).Idx → EReal) : (⟨2, ![M, N]⟩ : Shape).Idx → EReal :=
  fun i => prodScaleAt X W s (i 0) (i 1)

/-- Entry (r, k) of the hidden activations. -/
def hiddenAt (A : (⟨2, ![M, K]⟩ : Shape).Idx → EReal) (d : (⟨2, ![M, 1]⟩ : Shape).Idx → EReal)
    (b : (⟨2, ![1, K]⟩ : Shape).Idx → EReal) (r : Fin M) (k : Fin K) : EReal :=
  max (A (ix2 r k) * d (ix2 r (0 : Fin 1)) + b (ix2 (0 : Fin 1) k)) zeroF

/-- Entry (r, q) of the hidden layer's scaled output. -/
def hiddenProdAt (A : (⟨2, ![M, K]⟩ : Shape).Idx → EReal) (d : (⟨2, ![M, 1]⟩ : Shape).Idx → EReal)
    (b : (⟨2, ![1, K]⟩ : Shape).Idx → EReal) (W : (⟨2, ![K, N]⟩ : Shape).Idx → EReal)
    (s : (⟨2, ![M, 1]⟩ : Shape).Idx → EReal) (r : Fin M) (q : Fin N) : EReal :=
  (∑ k : Fin K, hiddenAt A d b r k * W (ix2 k q)) * s (ix2 r (0 : Fin 1))

/-- The hidden layer's scaled output as an array. -/
def hiddenProd (A : (⟨2, ![M, K]⟩ : Shape).Idx → EReal) (d : (⟨2, ![M, 1]⟩ : Shape).Idx → EReal)
    (b : (⟨2, ![1, K]⟩ : Shape).Idx → EReal) (W : (⟨2, ![K, N]⟩ : Shape).Idx → EReal)
    (s : (⟨2, ![M, 1]⟩ : Shape).Idx → EReal) : (⟨2, ![M, N]⟩ : Shape).Idx → EReal :=
  fun i => hiddenProdAt A d b W s (i 0) (i 1)

/-- Entry (r, c) of the logits: the aggregated row scaled and shifted by the bias. -/
def logitAt (A : (⟨2, ![M, N]⟩ : Shape).Idx → EReal) (d : (⟨2, ![M, 1]⟩ : Shape).Idx → EReal)
    (b : (⟨2, ![1, N]⟩ : Shape).Idx → EReal) (r : Fin M) (c : Fin N) : EReal :=
  A (ix2 r c) * d (ix2 r (0 : Fin 1)) + b (ix2 (0 : Fin 1) c)

/-- The largest logit of row r (never below the least extended real). -/
def rowMaxAt (A : (⟨2, ![M, N]⟩ : Shape).Idx → EReal) (d : (⟨2, ![M, 1]⟩ : Shape).Idx → EReal)
    (b : (⟨2, ![1, N]⟩ : Shape).Idx → EReal) (r : Fin M) : EReal :=
  max negInfF ((Finset.univ : Finset (Fin N)).fold max negInfF (fun c => logitAt A d b r c))

/-- The exponential of a logit less its row's maximum. -/
def expAt (A : (⟨2, ![M, N]⟩ : Shape).Idx → EReal) (d : (⟨2, ![M, 1]⟩ : Shape).Idx → EReal)
    (b : (⟨2, ![1, N]⟩ : Shape).Idx → EReal) (r : Fin M) (c : Fin N) : EReal :=
  Ideal.exp (logitAt A d b r c - rowMaxAt A d b r)

/-- Entry (r, q) of the row softmax. -/
def softmaxAt (A : (⟨2, ![M, N]⟩ : Shape).Idx → EReal) (d : (⟨2, ![M, 1]⟩ : Shape).Idx → EReal)
    (b : (⟨2, ![1, N]⟩ : Shape).Idx → EReal) (r : Fin M) (q : Fin N) : EReal :=
  Ideal.div (expAt A d b r q) (∑ k : Fin N, expAt A d b r k)

/-- The row softmax as an array. -/
def softmaxRows (A : (⟨2, ![M, N]⟩ : Shape).Idx → EReal) (d : (⟨2, ![M, 1]⟩ : Shape).Idx → EReal)
    (b : (⟨2, ![1, N]⟩ : Shape).Idx → EReal) : (⟨2, ![M, N]⟩ : Shape).Idx → EReal :=
  fun i => softmaxAt A d b (i 0) (i 1)

/-! ## A block of rows computes the same function of the same rows -/

variable {M' : Nat}

/-- The scaled product of a block of rows: if row p of the block's operands is row r of the array's, entry (p, q) of
    the block's product is entry (r, q) of the array's. -/
theorem prodScaleAt_rows (X : (⟨2, ![M, K]⟩ : Shape).Idx → EReal) (X' : (⟨2, ![M', K]⟩ : Shape).Idx → EReal)
    (W : (⟨2, ![K, N]⟩ : Shape).Idx → EReal)
    (s : (⟨2, ![M, 1]⟩ : Shape).Idx → EReal) (s' : (⟨2, ![M', 1]⟩ : Shape).Idx → EReal) (r : Fin M) (p : Fin M')
    (hX : ∀ k : Fin K, X' (ix2 p k) = X (ix2 r k)) (hs : s' (ix2 p (0 : Fin 1)) = s (ix2 r (0 : Fin 1))) (q : Fin N) :
    prodScaleAt X' W s' p q = prodScaleAt X W s r q := by
  unfold prodScaleAt
  rw [hs]
  exact congrArg (· * _) (Finset.sum_congr rfl fun k _ => by rw [hX k])

theorem hiddenProdAt_rows (A : (⟨2, ![M, K]⟩ : Shape).Idx → EReal) (A' : (⟨2, ![M', K]⟩ : Shape).Idx → EReal)
    (d : (⟨2, ![M, 1]⟩ : Shape).Idx → EReal) (d' : (⟨2, ![M', 1]⟩ : Shape).Idx → EReal)
    (b : (⟨2, ![1, K]⟩ : Shape).Idx → EReal) (W : (⟨2, ![K, N]⟩ : Shape).Idx → EReal)
    (s : (⟨2, ![M, 1]⟩ : Shape).Idx → EReal) (s' : (⟨2, ![M', 1]⟩ : Shape).Idx → EReal) (r : Fin M) (p : Fin M')
    (hA : ∀ k : Fin K, A' (ix2 p k) = A (ix2 r k)) (hd : d' (ix2 p (0 : Fin 1)) = d (ix2 r (0 : Fin 1)))
    (hs : s' (ix2 p (0 : Fin 1)) = s (ix2 r (0 : Fin 1))) (q : Fin N) :
    hiddenProdAt A' d' b W s' p q = hiddenProdAt A d b W s r q := by
  unfold hiddenProdAt hiddenAt
  rw [hs, hd]
  exact congrArg (· * _) (Finset.sum_congr rfl fun k _ => by rw [hA k])

theorem softmaxAt_rows (A : (⟨2, ![M, N]⟩ : Shape).Idx → EReal) (A' : (⟨2, ![M', N]⟩ : Shape).Idx → EReal)
    (d : (⟨2, ![M, 1]⟩ : Shape).Idx → EReal) (d' : (⟨2, ![M', 1]⟩ : Shape).Idx → EReal)
    (b : (⟨2, ![1, N]⟩ : Shape).Idx → EReal) (r : Fin M) (p : Fin M')
    (hA : ∀ c : Fin N, A' (ix2 p c) = A (ix2 r c)) (hd : d' (ix2 p (0 : Fin 1)) = d (ix2 r (0 : Fin 1))) (q : Fin N) :
    softmaxAt A' d' b p q = softmaxAt A d b r q := by
  have hl : ∀ c : Fin N, logitAt A' d' b p c = logitAt A d b r c := fun c => by
    unfold logitAt; rw [hA c, hd]
  have hm : rowMaxAt A' d' b p = rowMaxAt A d b r := by
    unfold rowMaxAt; rw [funext hl]
  have he : ∀ c : Fin N, expAt A' d' b p c = expAt A d b r c := fun c => by
    unfold expAt; rw [hl c, hm]
  unfold softmaxAt
  rw [he q, Finset.sum_congr rfl fun k _ => he k]

end Cert.Gcn

end
-- ==== Proof.LibTileOps.lean ====
/-
  Two-dimensional tiles read at an index, at the ideal values.

  A product of an m×k tile by a k×n tile accumulated into the zero tile is, entry by entry, the sum over the contracted
  coordinate of the products of the entries; a 1×n row stretched to m×n reads, at (a, b), the row's entry b. Each
  statement is for the dimension numbers as a record over any extents; a program's own record is one of these at its
  literal extents.
-/
import Idealize.ShloMosaic.PureOps.Ideal.Laws
import Idealize.ShloMosaic.Lib.ValueIdx
import Idealize.ShloMosaic.Lib.Pipeline.Value

noncomputable section

open scoped BigOperators

namespace Idealize.ShloMosaic.TileOps

open Idealize.ShloMosaic.ValueIdx

/-- The product of an m×k tile by a k×n tile (the left operand contracted on its columns, the right on its rows, no batch
    axes) into the zero tile, read at (a, b): the sum over the contracted coordinate of the products of the entries. -/
theorem matmul_zero_apply {m k n : Nat} {φ₁ φ₂ : FTy}
    (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂)
    (a : Fin m) (b : Fin n) :
    FloatOps.matmul (⟨[1], [0], [0], [1], [], [], w⟩ : DotDims ⟨2, ![m, k]⟩ ⟨2, ![k, n]⟩ ⟨2, ![m, n]⟩) prec A B
        (constant ⟨2, ![m, n]⟩ .f32 0x00000000#32) (ix2 a b)
      = ∑ c : Fin k, A (ix2 a c) * B (ix2 c b) := by
  rw [Ideal.matmul_constant_zero_apply,
    ← Equiv.sum_comp (contrEquiv1 (⟨[1], [0], [0], [1], [], [], w⟩ : DotDims ⟨2, ![m, k]⟩ ⟨2, ![k, n]⟩ ⟨2, ![m, n]⟩) k rfl rfl).symm]
  refine Finset.sum_congr rfl fun c _ => ?_
  have c2 := contrEquiv1_symm_val
    (⟨[1], [0], [0], [1], [], [], w⟩ : DotDims ⟨2, ![m, k]⟩ ⟨2, ![k, n]⟩ ⟨2, ![m, n]⟩) k rfl rfl c
  have l2 : (⟨[1], [0], [0], [1], [], [], w⟩ : DotDims ⟨2, ![m, k]⟩ ⟨2, ![k, n]⟩ ⟨2, ![m, n]⟩).lhsIdx (ix2 a b)
      ((contrEquiv1 _ k rfl rfl).symm c) = ix2 a c := by
    funext ax; apply Fin.ext
    match ax with
    | ⟨0, _⟩ => simp [DotDims.lhsIdx]; rfl
    | ⟨1, _⟩ => simp [DotDims.lhsIdx]; exact c2
  have r2 : (⟨[1], [0], [0], [1], [], [], w⟩ : DotDims ⟨2, ![m, k]⟩ ⟨2, ![k, n]⟩ ⟨2, ![m, n]⟩).rhsIdx (ix2 a b)
      ((contrEquiv1 _ k rfl rfl).symm c) = ix2 c b := by
    funext ax; apply Fin.ext
    match ax with
    | ⟨0, _⟩ => simp [DotDims.rhsIdx]; exact c2
    | ⟨1, _⟩ => simp [DotDims.rhsIdx]; rfl
  rw [l2, r2]

/-- A 1×n row stretched to m×n reads, at (a, b), the row's entry b. -/
theorem broadcastRow_apply {α : Type} {m n : Nat} (x : (⟨2, ![1, n]⟩ : Shape).Idx → α)
    (h : (⟨2, ![1, n]⟩ : Shape).Broadcasts ⟨2, ![m, n]⟩) (a : Fin m) (b : Fin n) :
    broadcastTo ⟨2, ![m, n]⟩ x h (ix2 a b) = x (ix2 (0 : Fin 1) b) := by
  refine broadcastTo_apply x h (ix2 a b) (ix2 (0 : Fin 1) b) fun ax => ?_
  match ax with
  | ⟨0, _⟩ => rfl
  | ⟨1, _⟩ =>
    show b.val = if n = 1 then 0 else b.val
    by_cases hn : n = 1
    · rw [if_pos hn]; have := b.isLt; omega
    · rw [if_neg hn]

end Idealize.ShloMosaic.TileOps

end
-- ==== Proof.LibColForm.lean ====
/-
  A column read at an index: a vector recast as a one-column matrix, and a one-column matrix stretched along its rows.
-/
import Idealize.ShloMosaic.Lib.ValueIdx
import Idealize.ShloMosaic.Lib.Pipeline.Value

namespace Cert.ColForm

open Idealize.ShloMosaic Idealize.ShloMosaic.ValueIdx

/-- A vector of length `n` recast as an `n × 1` matrix, read at row `j` and column `0`, is the vector at `j`: both
    positions are the `j`-th in row-major order. -/
theorem col_of_reshape {α : Type} {n : Nat} (v : (⟨1, ![n]⟩ : Shape).Idx → α)
    (h : (⟨1, ![n]⟩ : Shape).ShapeCasts ⟨2, ![n, 1]⟩) (j : Fin n) :
    shapeCast (⟨2, ![n, 1]⟩ : Shape) v h (ix2 j (0 : Fin 1)) = v (ix1 j) := by
  refine shapeCast_apply v h (ix2 j (0 : Fin 1)) (ix1 j) ?_
  rw [Shape.rowMajor_val_one, Shape.rowMajor_val_two]
  show j.val = j.val * 1 + 0
  omega

/-- An `m × 1` column stretched to `m × n` reads, at `(a, b)`, the column's entry `a`. -/
theorem broadcastCol_apply {α : Type} {m n : Nat} (x : (⟨2, ![m, 1]⟩ : Shape).Idx → α)
    (h : (⟨2, ![m, 1]⟩ : Shape).Broadcasts ⟨2, ![m, n]⟩) (a : Fin m) (b : Fin n) :
    broadcastTo ⟨2, ![m, n]⟩ x h (ix2 a b) = x (ix2 a (0 : Fin 1)) := by
  refine broadcastTo_apply x h (ix2 a b) (ix2 a (0 : Fin 1)) fun ax => ?_
  match ax with
  | ⟨0, _⟩ =>
    show a.val = if m = 1 then 0 else a.val
    by_cases hm : m = 1
    · rw [if_pos hm]; have := a.isLt; omega
    · rw [if_neg hm]
  | ⟨1, _⟩ => rfl

end Cert.ColForm
-- ==== Proof.Body0.lean ====
/-
  What the first dense stage's body stores, entry by entry: on a block of 2000 rows, the product of the block of inputs
  with the whole weight matrix, accumulated from zero, each row then multiplied by the block's scale column.
-/
import proofs.«139141_j43722767073362_2_alg».proof.Proof.Gen.KernelIdeal.Skeleton
import proofs.«139141_j43722767073362_2_alg».proof.Proof.Spec
import proofs.«139141_j43722767073362_2_alg».proof.Proof.LibTileOps
import proofs.«139141_j43722767073362_2_alg».proof.Proof.LibColForm

noncomputable section

open scoped BigOperators

namespace Cert.KernelIdeal.Body

open Cert.KernelIdeal Cert.KernelIdeal.Gen Idealize.ShloMosaic Idealize.ShloMosaic.ValueIdx Cert.Gcn

variable [Facts₀]

/-- Entry (p, q) of the stored block is the scaled product of the loaded blocks at (p, q). -/
theorem pay0_apply (x0 : Vec Ideal S2000x512 .f32) (x1 : Vec Ideal S512x128 .f32) (x2 : Vec Ideal S2000x1 .f32)
    (p : Fin 2000) (q : Fin 128) :
    k0_pay1 (F := Ideal) x0 x1 x2 (ix2 p q) = prodScaleAt x0 x1 x2 p q := by
  unfold k0_pay1 prodScaleAt
  show matmul (F := Ideal) dot_S2000x512_S512x128_S2000x128_1_0_0_1_n_n (some .fp32) x0 x1 (constant (F := Ideal) S2000x128 .f32 0x00000000#32) (ix2 p q)
      * broadcastTo S2000x128 (shapeCast S2000x1 x2 shapeCasts_S2000x1_S2000x1) broadcasts_S2000x1_S2000x128 (ix2 p q) = _
  rw [shapeCast_self]
  refine congrArg₂ (· * ·) ?_ ?_
  · exact TileOps.matmul_zero_apply _ (some .fp32) x0 x1 p q
  · exact Cert.ColForm.broadcastCol_apply x2 broadcasts_S2000x1_S2000x128 p q

end Cert.KernelIdeal.Body

end
-- ==== Proof.Final0.lean ====
/-
  The first dense stage as a whole: the grid has 50 points, point t works on rows 2000·t … 2000·t + 1999. Its input
  block is those rows of the inputs, its scale block those rows of the scale column, the weight matrix is read whole;
  it writes those rows of the result. The 50 row blocks tile the 100000 rows, so after the region the result array is
  the scaled product of the arrays the region found, entry by entry.
-/
import proofs.«139141_j43722767073362_2_alg».proof.Proof.Gen.KernelIdeal.Frame
import proofs.«139141_j43722767073362_2_alg».proof.Proof.Body0
import Idealize.ShloMosaic.Lib.Pipeline.Value

set_option maxRecDepth 16384

noncomputable section

open scoped BigOperators

namespace Cert.KernelIdeal.Stage0

open Cert.KernelIdeal Cert.KernelIdeal.Gen Cert.KernelIdeal.Body Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at grid point t: the row-blocked windows are at block row t, the weight matrix at
    its only block. Decided over the 50 points. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Row p of point t's input block is row 2000·t + p of the inputs. -/
theorem iblk_in (c : Dev nD) (t : Fin cfg0.N) (p : Fin 2000) (k : Fin 512) (r : Fin 100000)
    (hr : r.val = t.val * 2000 + p.val) :
    (iblk0 V c 0 t : Vec Ideal S2000x512 .f32) (ix2 p k) = (V c main_arg0 : S100000x512.Idx → EReal) (ix2 r k) := by
  obtain ⟨e0, e1, -⟩ := idx_facts t
  unfold iblk0
  rw [View.read_apply]
  show V c main_arg0 _ = V c main_arg0 _
  refine congrArg (V c main_arg0) (funext fun a => Fin.ext ?_)
  match a with
  | ⟨0, _⟩ => show win0_0.index t (0 : Fin 2) * 2000 + 1 * p.val = r.val; rw [e0, hr]; omega
  | ⟨1, _⟩ => show win0_0.index t (1 : Fin 2) * 512 + 1 * k.val = k.val; rw [e1]; omega

/-- The weight block at every point is the whole weight matrix. -/
theorem iblk_w (c : Dev nD) (t : Fin cfg0.N) (k : Fin 512) (q : Fin 128) :
    (iblk0 V c 1 t : Vec Ideal S512x128 .f32) (ix2 k q) = (V c main_arg1 : S512x128.Idx → EReal) (ix2 k q) := by
  obtain ⟨-, -, e0, e1, -⟩ := idx_facts t
  unfold iblk0
  rw [View.read_apply]
  show V c main_arg1 _ = V c main_arg1 _
  refine congrArg (V c main_arg1) (funext fun a => Fin.ext ?_)
  match a with
  | ⟨0, _⟩ => show win0_1.index t (0 : Fin 2) * 512 + 1 * k.val = k.val; rw [e0]; omega
  | ⟨1, _⟩ => show win0_1.index t (1 : Fin 2) * 128 + 1 * q.val = q.val; rw [e1]; omega

/-- Row p of point t's scale block is row 2000·t + p of the scale column. -/
theorem iblk_s (c : Dev nD) (t : Fin cfg0.N) (p : Fin 2000) (r : Fin 100000)
    (hr : r.val = t.val * 2000 + p.val) :
    (iblk0 V c 2 t : Vec Ideal S2000x1 .f32) (ix2 p (0 : Fin 1)) = (V c main_v13 : S100000x1.Idx → EReal) (ix2 r (0 : Fin 1)) := by
  obtain ⟨-, -, -, -, e0, e1, -⟩ := idx_facts t
  unfold iblk0
  rw [View.read_apply]
  show V c main_v13 _ = V c main_v13 _
  refine congrArg (V c main_v13) (funext fun a => Fin.ext ?_)
  match a with
  | ⟨0, _⟩ => show win0_2.index t (0 : Fin 2) * 2000 + 1 * p.val = r.val; rw [e0, hr]; omega
  | ⟨1, _⟩ => show win0_2.index t (1 : Fin 2) * 1 + 1 * 0 = 0; rw [e1]

/-- Entry (p, q) of what point t stores is entry (2000·t + p, q) of the scaled product of the arrays. -/
theorem stored_apply (c : Dev nD) (t : Fin cfg0.N) (p : Fin 2000) (q : Fin 128) (r : Fin 100000)
    (hr : r.val = t.val * 2000 + p.val) :
    k0_pay1 (F := Ideal) (iblk0 V c 0 t) (iblk0 V c 1 t) (iblk0 V c 2 t) (ix2 p q)
      = prodScaleAt (V c main_arg0 : S100000x512.Idx → EReal) (V c main_arg1 : S512x128.Idx → EReal)
          (V c main_v13 : S100000x1.Idx → EReal) r q := by
  refine (pay0_apply (iblk0 V c 0 t) (iblk0 V c 1 t) (iblk0 V c 2 t) p q).trans ?_
  have hw : (iblk0 V c 1 t : Vec Ideal S512x128 .f32) = (V c main_arg1 : S512x128.Idx → EReal) :=
    funext fun j => by rw [eq_ix2 j]; exact iblk_w V c t (j 0) (j 1)
  rw [hw]
  exact prodScaleAt_rows _ _ _ _ _ r p (fun k => iblk_in V c t p k r hr) (iblk_s V c t p r hr) q

/-- What point t writes back is block t of the scaled product of the arrays as the region finds them. -/
theorem flushed_eq (c : Dev nD) (t : Fin cfg0.N) :
    (dat0 V c).flushed 3 t = ((cfg0.win 3).blk t).view.read (Elt Ideal)
      (prodScale (V c main_arg0 : S100000x512.Idx → EReal) (V c main_arg1 : S512x128.Idx → EReal) (V c main_v13 : S100000x1.Idx → EReal)) := by
  show (cfg0.win 3).cut (grid0.coords t) ((dat0 V c).after 3 t) = _
  rw [after0_3]
  unfold out0_3
  rw [View.canon_unit_zero hz]
  simp only [View.ld_unit_zero (S := S2000x512) hz, View.ld_unit_zero (S := S512x128) hz, View.ld_unit_zero (S := S2000x1) hz]
  obtain ⟨-, -, -, -, -, -, e0, e1⟩ := idx_facts t
  funext y
  rw [View.read_apply]
  have hy0 : (y 0).val < 2000 := (y 0).isLt
  have hy1 : (y 1).val < 128 := (y 1).isLt
  have ht : t.val < 50 := Nat.lt_of_lt_of_eq t.isLt N_0
  have e := stored_apply V c t ⟨(y 0).val, hy0⟩ ⟨(y 1).val, hy1⟩ ⟨t.val * 2000 + (y 0).val, by omega⟩ rfl
  refine Eq.trans ?_ (e.trans ?_)
  · exact congrArg _ (funext fun a => by match a with | ⟨0, _⟩ => rfl | ⟨1, _⟩ => rfl)
  · unfold prodScale
    refine congrArg₂ (prodScaleAt _ _ _) (Fin.ext ?_) (Fin.ext ?_)
    · show t.val * 2000 + (y 0).val = win0_3.index t (0 : Fin 2) * 2000 + 1 * (y 0).val; rw [e0]; omega
    · show (y 1).val = win0_3.index t (1 : Fin 2) * 128 + 1 * (y 1).val; rw [e1]; omega

/-- An index of the result array is in point t's block iff its row is among the block's 2000 rows. -/
theorem mem_blk (t : Fin cfg0.N) (i : S100000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v14).slice (win0_3.rect t)).set ↔ _
  rw [View.set_slice_whole, Rect.mem_set_unit]
  exact Iff.rfl

/-- Every index of the result array is in the block of the point its row falls to. -/
theorem cover (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 50 := N_0
  let t : Fin cfg0.N := ⟨(i 0).val / 2000, by rw [hN]; omega⟩
  obtain ⟨-, -, -, -, -, -, e0, e1⟩ := idx_facts t
  refine ⟨t, flush0_3 t, ?_⟩
  rw [mem_blk]
  intro a
  match a with
  | ⟨0, _⟩ =>
    show win0_3.index t (0 : Fin 2) * 2000 ≤ (i 0).val ∧ (i 0).val < win0_3.index t (0 : Fin 2) * 2000 + 2000
    rw [e0]; show (i 0).val / 2000 * 2000 ≤ (i 0).val ∧ (i 0).val < (i 0).val / 2000 * 2000 + 2000; omega
  | ⟨1, _⟩ =>
    show win0_3.index t (1 : Fin 2) * 128 ≤ (i 1).val ∧ (i 1).val < win0_3.index t (1 : Fin 2) * 128 + 128
    rw [e1]; omega

/-- After the region the result array is the scaled product of the arrays the region found. -/
theorem final (c : Dev nD) :
    (dat0 V c).arrAt 3 cfg0.N
      = prodScale (V c main_arg0 : S100000x512.Idx → EReal) (V c main_arg1 : S512x128.Idx → EReal) (V c main_v13 : S100000x1.Idx → EReal) :=
  (dat0 V c).arrAt_eq_of_cover 3 _ (fun t _ => flushed_eq V c t) cover

end Cert.KernelIdeal.Stage0

end
-- ==== Proof.Body1.lean ====
/-
  What the second dense stage's body stores, entry by entry: on a block of 2000 rows, each aggregated row is multiplied
  by its scale, shifted by the bias row and clipped below at zero; the clipped block is multiplied into the whole weight
  matrix, accumulated from zero, and each row of the product multiplied by the block's second scale column.
-/
import proofs.«139141_j43722767073362_2_alg».proof.Proof.Gen.KernelIdeal.Skeleton
import proofs.«139141_j43722767073362_2_alg».proof.Proof.Spec
import proofs.«139141_j43722767073362_2_alg».proof.Proof.LibTileOps
import proofs.«139141_j43722767073362_2_alg».proof.Proof.LibColForm

noncomputable section

open scoped BigOperators

namespace Cert.KernelIdeal.Body

open Cert.KernelIdeal Cert.KernelIdeal.Gen Idealize.ShloMosaic Idealize.ShloMosaic.ValueIdx Cert.Gcn

variable [Facts₀]

/-- Entry (p, k) of the clipped block. -/
theorem hid_apply (v0 : Vec Ideal S2000x128 .f32) (v2 : Vec Ideal S2000x1 .f32) (v6 : Vec Ideal S1x128 .f32)
    (p : Fin 2000) (k : Fin 128) :
    maximumf (F := Ideal)
        (addf (mulf (shapeCast S2000x128 v0 shapeCasts_S2000x128_S2000x128)
            (broadcastTo S2000x128 (shapeCast S2000x1 v2 shapeCasts_S2000x1_S2000x1) broadcasts_S2000x1_S2000x128))
          (broadcastTo S2000x128 (shapeCast S1x128 v6 shapeCasts_S1x128_S1x128) broadcasts_S1x128_S2000x128))
        (broadcast S2000x128 (Scalar.ofBits (F := Ideal) .f32 0x00000000#32)) (ix2 p k)
      = hiddenAt v0 v2 v6 p k := by
  rw [shapeCast_self, shapeCast_self, shapeCast_self]
  unfold hiddenAt
  show max (v0 (ix2 p k) * broadcastTo S2000x128 v2 broadcasts_S2000x1_S2000x128 (ix2 p k)
      + broadcastTo S2000x128 v6 broadcasts_S1x128_S2000x128 (ix2 p k)) _ = _
  rw [Cert.ColForm.broadcastCol_apply v2 broadcasts_S2000x1_S2000x128 p k,
    TileOps.broadcastRow_apply v6 broadcasts_S1x128_S2000x128 p k]
  rfl

/-- Entry (p, q) of the stored block is the hidden layer's scaled output of the loaded blocks at (p, q). -/
theorem pay1_apply (v0 : Vec Ideal S2000x128 .f32) (v2 : Vec Ideal S2000x1 .f32) (v6 : Vec Ideal S1x128 .f32)
    (v12 : Vec Ideal S128x2 .f32) (v14 : Vec Ideal S2000x1 .f32) (p : Fin 2000) (q : Fin 2) :
    k1_pay1 (F := Ideal) v0 v2 v6 v12 v14 (ix2 p q) = hiddenProdAt v0 v2 v6 v12 v14 p q := by
  dsimp only [k1_pay1]
  rw [mulf_apply]
  unfold hiddenProdAt
  refine congrArg₂ (· * ·) ?_ ?_
  · refine (TileOps.matmul_zero_apply _ (some .fp32) _ v12 p q).trans ?_
    exact Finset.sum_congr rfl fun k _ => congrArg (· * _) (hid_apply v0 v2 v6 p k)
  · rw [shapeCast_self]
    exact Cert.ColForm.broadcastCol_apply v14 broadcasts_S2000x1_S2000x2 p q

end Cert.KernelIdeal.Body

end
-- ==== Proof.Final1.lean ====
/-
  The second dense stage as a whole: point t of the 50 works on rows 2000·t … 2000·t + 1999 of the aggregate and of the
  two scale columns, reads the bias row and the weight matrix whole, and writes those rows of the result. The row
  blocks tile the 100000 rows, so after the region the result array is the hidden layer's scaled output of the arrays
  the region found, entry by entry.
-/
import proofs.«139141_j43722767073362_2_alg».proof.Proof.Gen.KernelIdeal.Frame
import proofs.«139141_j43722767073362_2_alg».proof.Proof.Body1
import Idealize.ShloMosaic.Lib.Pipeline.Value

set_option maxRecDepth 16384

noncomputable section

open scoped BigOperators

namespace Cert.KernelIdeal.Stage1

open Cert.KernelIdeal Cert.KernelIdeal.Gen Cert.KernelIdeal.Body Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at grid point t: the row-blocked windows are at block row t, the bias row and the
    weight matrix at their only block. Decided over the 50 points. -/
theorem idx_w0 : ∀ t : Fin cfg1.N, win1_0.index t (0 : Fin 2) = t.val ∧ win1_0.index t (1 : Fin 2) = 0 :=
  (by decide +kernel : ∀ t : Fin grid1.N, _)
theorem idx_w1 : ∀ t : Fin cfg1.N, win1_1.index t (0 : Fin 2) = t.val ∧ win1_1.index t (1 : Fin 2) = 0 :=
  (by decide +kernel : ∀ t : Fin grid1.N, _)
theorem idx_w2 : ∀ t : Fin cfg1.N, win1_2.index t (0 : Fin 2) = 0 ∧ win1_2.index t (1 : Fin 2) = 0 :=
  (by decide +kernel : ∀ t : Fin grid1.N, _)
theorem idx_w3 : ∀ t : Fin cfg1.N, win1_3.index t (0 : Fin 2) = 0 ∧ win1_3.index t (1 : Fin 2) = 0 :=
  (by decide +kernel : ∀ t : Fin grid1.N, _)
theorem idx_w4 : ∀ t : Fin cfg1.N, win1_4.index t (0 : Fin 2) = t.val ∧ win1_4.index t (1 : Fin 2) = 0 :=
  (by decide +kernel : ∀ t : Fin grid1.N, _)
theorem idx_w5 : ∀ t : Fin cfg1.N, win1_5.index t (0 : Fin 2) = t.val ∧ win1_5.index t (1 : Fin 2) = 0 :=
  (by decide +kernel : ∀ t : Fin grid1.N, _)

/-- Row p of point t's block of aggregated rows is row 2000·t + p of the aggregate. -/
theorem iblk_agg (c : Dev nD) (t : Fin cfg1.N) (p : Fin 2000) (k : Fin 128) (r : Fin 100000)
    (hr : r.val = t.val * 2000 + p.val) :
    (iblk1 V c 0 t : Vec Ideal S2000x128 .f32) (ix2 p k) = (V c main_v24 : S100000x128.Idx → EReal) (ix2 r k) := by
  obtain ⟨e0, e1⟩ := idx_w0 t
  unfold iblk1
  rw [View.read_apply]
  show V c main_v24 _ = V c main_v24 _
  refine congrArg (V c main_v24) (funext fun a => Fin.ext ?_)
  match a with
  | ⟨0, _⟩ => show win1_0.index t (0 : Fin 2) * 2000 + 1 * p.val = r.val; rw [e0, hr]; omega
  | ⟨1, _⟩ => show win1_0.index t (1 : Fin 2) * 128 + 1 * k.val = k.val; rw [e1]; omega

/-- Row p of point t's first scale block is row 2000·t + p of that scale column. -/
theorem iblk_d (c : Dev nD) (t : Fin cfg1.N) (p : Fin 2000) (r : Fin 100000)
    (hr : r.val = t.val * 2000 + p.val) :
    (iblk1 V c 1 t : Vec Ideal S2000x1 .f32) (ix2 p (0 : Fin 1)) = (V c main_v25 : S100000x1.Idx → EReal) (ix2 r (0 : Fin 1)) := by
  obtain ⟨e0, e1⟩ := idx_w1 t
  unfold iblk1
  rw [View.read_apply]
  show V c main_v25 _ = V c main_v25 _
  refine congrArg (V c main_v25) (funext fun a => Fin.ext ?_)
  match a with
  | ⟨0, _⟩ => show win1_1.index t (0 : Fin 2) * 2000 + 1 * p.val = r.val; rw [e0, hr]; omega
  | ⟨1, _⟩ => show win1_1.index t (1 : Fin 2) * 1 + 1 * 0 = 0; rw [e1]

/-- The bias block at every point is the whole bias row. -/
theorem iblk_b (c : Dev nD) (t : Fin cfg1.N) :
    (iblk1 V c 2 t : Vec Ideal S1x128 .f32) = (V c main_v27 : S1x128.Idx → EReal) := by
  obtain ⟨e0, e1⟩ := idx_w2 t
  funext j
  unfold iblk1
  rw [View.read_apply]
  show V c main_v27 _ = V c main_v27 _
  refine congrArg (V c main_v27) (funext fun a => Fin.ext ?_)
  match a with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega

/-- The weight block at every point is the whole weight matrix. -/
theorem iblk_w (c : Dev nD) (t : Fin cfg1.N) :
    (iblk1 V c 3 t : Vec Ideal S128x2 .f32) = (V c main_arg3 : S128x2.Idx → EReal) := by
  obtain ⟨e0, e1⟩ := idx_w3 t
  funext j
  unfold iblk1
  rw [View.read_apply]
  show V c main_arg3 _ = V c main_arg3 _
  refine congrArg (V c main_arg3) (funext fun a => Fin.ext ?_)
  match a with
  | ⟨0, _⟩ => show win1_3.index t (0 : Fin 2) * 128 + 1 * (j 0).val = (j 0).val; rw [e0]; omega
  | ⟨1, _⟩ => show win1_3.index t (1 : Fin 2) * 2 + 1 * (j 1).val = (j 1).val; rw [e1]; omega

/-- Row p of point t's second scale block is row 2000·t + p of that scale column. -/
theorem iblk_s (c : Dev nD) (t : Fin cfg1.N) (p : Fin 2000) (r : Fin 100000)
    (hr : r.val = t.val * 2000 + p.val) :
    (iblk1 V c 4 t : Vec Ideal S2000x1 .f32) (ix2 p (0 : Fin 1)) = (V c main_v26 : S100000x1.Idx → EReal) (ix2 r (0 : Fin 1)) := by
  obtain ⟨e0, e1⟩ := idx_w4 t
  unfold iblk1
  rw [View.read_apply]
  show V c main_v26 _ = V c main_v26 _
  refine congrArg (V c main_v26) (funext fun a => Fin.ext ?_)
  match a with
  | ⟨0, _⟩ => show win1_4.index t (0 : Fin 2) * 2000 + 1 * p.val = r.val; rw [e0, hr]; omega
  | ⟨1, _⟩ => show win1_4.index t (1 : Fin 2) * 1 + 1 * 0 = 0; rw [e1]

/-- Entry (p, q) of what point t stores is entry (2000·t + p, q) of the hidden layer's scaled output of the arrays. -/
theorem stored_apply (c : Dev nD) (t : Fin cfg1.N) (p : Fin 2000) (q : Fin 2) (r : Fin 100000)
    (hr : r.val = t.val * 2000 + p.val) :
    k1_pay1 (F := Ideal) (iblk1 V c 0 t) (iblk1 V c 1 t) (iblk1 V c 2 t) (iblk1 V c 3 t) (iblk1 V c 4 t) (ix2 p q)
      = hiddenProdAt (V c main_v24 : S100000x128.Idx → EReal) (V c main_v25 : S100000x1.Idx → EReal) (V c main_v27 : S1x128.Idx → EReal)
          (V c main_arg3 : S128x2.Idx → EReal) (V c main_v26 : S100000x1.Idx → EReal) r q := by
  refine (pay1_apply (iblk1 V c 0 t) (iblk1 V c 1 t) (iblk1 V c 2 t) (iblk1 V c 3 t) (iblk1 V c 4 t) p q).trans ?_
  rw [iblk_b V c t, iblk_w V c t]
  exact hiddenProdAt_rows _ _ _ _ _ _ _ _ r p (fun k => iblk_agg V c t p k r hr) (iblk_d V c t p r hr) (iblk_s V c t p r hr) q

/-- What point t writes back is block t of the hidden layer's scaled output of the arrays as the region finds them. -/
theorem flushed_eq (c : Dev nD) (t : Fin cfg1.N) :
    (dat1 V c).flushed 5 t = ((cfg1.win 5).blk t).view.read (Elt Ideal)
      (hiddenProd (V c main_v24 : S100000x128.Idx → EReal) (V c main_v25 : S100000x1.Idx → EReal) (V c main_v27 : S1x128.Idx → EReal)
          (V c main_arg3 : S128x2.Idx → EReal) (V c main_v26 : S100000x1.Idx → EReal)) := by
  show (cfg1.win 5).cut (grid1.coords t) ((dat1 V c).after 5 t) = _
  rw [after1_5]
  unfold out1_5
  rw [View.canon_unit_zero hz]
  simp only [View.ld_unit_zero (S := S2000x128) hz, View.ld_unit_zero (S := S2000x1) hz, View.ld_unit_zero (S := S1x128) hz, View.ld_unit_zero (S := S128x2) hz]
  obtain ⟨e0, e1⟩ := idx_w5 t
  funext y
  rw [View.read_apply]
  have hy0 : (y 0).val < 2000 := (y 0).isLt
  have hy1 : (y 1).val < 2 := (y 1).isLt
  have ht : t.val < 50 := Nat.lt_of_lt_of_eq t.isLt N_1
  have e := stored_apply V c t ⟨(y 0).val, hy0⟩ ⟨(y 1).val, hy1⟩ ⟨t.val * 2000 + (y 0).val, by omega⟩ rfl
  refine Eq.trans ?_ (e.trans ?_)
  · exact congrArg _ (funext fun a => by match a with | ⟨0, _⟩ => rfl | ⟨1, _⟩ => rfl)
  · unfold hiddenProd
    refine congrArg₂ (hiddenProdAt _ _ _ _ _) (Fin.ext ?_) (Fin.ext ?_)
    · show t.val * 2000 + (y 0).val = win1_5.index t (0 : Fin 2) * 2000 + 1 * (y 0).val; rw [e0]; omega
    · show (y 1).val = win1_5.index t (1 : Fin 2) * 2 + 1 * (y 1).val; rw [e1]; omega

/-- An index of the result array is in point t's block iff its row is among the block's 2000 rows. -/
theorem mem_blk (t : Fin cfg1.N) (i : S100000x2.Idx) :
    i ∈ ((cfg1.win 5).blk t).view.set ↔ ∀ a : Fin 2, win1_5.index t a * S2000x2.size a ≤ (i a).val ∧ (i a).val < win1_5.index t a * S2000x2.size a + S2000x2.size a := by
  show i ∈ ((View.whole main_v28).slice (win1_5.rect t)).set ↔ _
  rw [View.set_slice_whole, Rect.mem_set_unit]
  exact Iff.rfl

/-- Every index of the result array is in the block of the point its row falls to. -/
theorem cover (i : S100000x2.Idx) : ∃ t : Fin cfg1.N, (cfg1.win 5).flush t = true ∧ i ∈ ((cfg1.win 5).blk t).view.set := by
  have hi0 : (i 0).val < 100000 := (i 0).isLt
  have hi1 : (i 1).val < 2 := (i 1).isLt
  have hN : cfg1.N = 50 := N_1
  let t : Fin cfg1.N := ⟨(i 0).val / 2000, by rw [hN]; omega⟩
  obtain ⟨e0, e1⟩ := idx_w5 t
  refine ⟨t, flush1_5 t, ?_⟩
  rw [mem_blk]
  intro a
  match a with
  | ⟨0, _⟩ =>
    show win1_5.index t (0 : Fin 2) * 2000 ≤ (i 0).val ∧ (i 0).val < win1_5.index t (0 : Fin 2) * 2000 + 2000
    rw [e0]; show (i 0).val / 2000 * 2000 ≤ (i 0).val ∧ (i 0).val < (i 0).val / 2000 * 2000 + 2000; omega
  | ⟨1, _⟩ =>
    show win1_5.index t (1 : Fin 2) * 2 ≤ (i 1).val ∧ (i 1).val < win1_5.index t (1 : Fin 2) * 2 + 2
    rw [e1]; omega

/-- After the region the result array is that function of the arrays the region found. -/
theorem final (c : Dev nD) :
    (dat1 V c).arrAt 5 cfg1.N
      = hiddenProd (V c main_v24 : S100000x128.Idx → EReal) (V c main_v25 : S100000x1.Idx → EReal) (V c main_v27 : S1x128.Idx → EReal)
          (V c main_arg3 : S128x2.Idx → EReal) (V c main_v26 : S100000x1.Idx → EReal) :=
  (dat1 V c).arrAt_eq_of_cover 5 _ (fun t _ => flushed_eq V c t) cover

end Cert.KernelIdeal.Stage1

end
-- ==== Proof.Body2.lean ====
/-
  What the last dense stage's body stores, entry by entry: on a block of 2000 rows, each aggregated row is multiplied by
  its scale and shifted by the bias row (the logits); the row's largest logit is subtracted, the exponential taken, and
  each entry divided by the sum of its row.
-/
import proofs.«139141_j43722767073362_2_alg».proof.Proof.Gen.KernelIdeal.Skeleton
import proofs.«139141_j43722767073362_2_alg».proof.Proof.Spec
import proofs.«139141_j43722767073362_2_alg».proof.Proof.LibTileOps
import proofs.«139141_j43722767073362_2_alg».proof.Proof.LibColForm

noncomputable section

open scoped BigOperators

namespace Cert.KernelIdeal.Body

open Cert.KernelIdeal Cert.KernelIdeal.Gen Idealize.ShloMosaic Idealize.ShloMosaic.ValueIdx Cert.Gcn

variable [Facts₀]

/-- Entry (p, c) of the logits. -/
theorem logit_apply (v0 : Vec Ideal S2000x2 .f32) (v2 : Vec Ideal S2000x1 .f32) (v6 : Vec Ideal S1x2 .f32)
    (p : Fin 2000) (c : Fin 2) :
    addf (F := Ideal) (φ := .f32) (mulf (shapeCast S2000x2 v0 shapeCasts_S2000x2_S2000x2)
          (broadcastTo S2000x2 (shapeCast S2000x1 v2 shapeCasts_S2000x1_S2000x1) broadcasts_S2000x1_S2000x2))
        (broadcastTo S2000x2 (shapeCast S1x2 v6 shapeCasts_S1x2_S1x2) broadcasts_S1x2_S2000x2) (ix2 p c)
      = logitAt v0 v2 v6 p c := by
  rw [shapeCast_self, shapeCast_self, shapeCast_self]
  unfold logitAt
  show v0 (ix2 p c) * broadcastTo S2000x2 v2 broadcasts_S2000x1_S2000x2 (ix2 p c)
      + broadcastTo S2000x2 v6 broadcasts_S1x2_S2000x2 (ix2 p c) = _
  rw [Cert.ColForm.broadcastCol_apply v2 broadcasts_S2000x1_S2000x2 p c,
    TileOps.broadcastRow_apply v6 broadcasts_S1x2_S2000x2 p c]

/-- The reduced index with a column inserted is the entry of that row and column. -/
theorem lift_row (p : Fin 2000) (c : Fin 2) : reduces_S2000x2_S2000.lift (ix1 p) c = ix2 p c :=
  funext fun a => Fin.ext (by match a with | ⟨0, _⟩ => rfl | ⟨1, _⟩ => rfl)

/-- The row maximum of a block: the largest entry of row p, never below the least extended real. -/
theorem rowmax_apply (Z : FVec Ideal S2000x2 .f32) (p : Fin 2000) :
    maximumf (F := Ideal) (broadcast S2000 (Scalar.ofBits (F := Ideal) .f32 0xFF800000#32))
        (multiReduction (F := Ideal) .maximumf [1] S2000 Z 0xFF800000#32 reduces_S2000x2_S2000 (.inl rfl) rfl) (ix1 p)
      = max negInfF ((Finset.univ : Finset (Fin 2)).fold max negInfF (fun c => Z (ix2 p c))) := by
  show max negInfF (multiReduction (F := Ideal) .maximumf [1] S2000 Z 0xFF800000#32 reduces_S2000x2_S2000 (.inl rfl) rfl (ix1 p)) = _
  refine congrArg (max negInfF) ?_
  refine (Ideal.multiReduction_maximumf_single Z 0xFF800000#32 reduces_S2000x2_S2000 (.inl rfl) rfl (ix1 p)).trans ?_
  exact congrArg (fun f => (Finset.univ : Finset (Fin 2)).fold max negInfF f) (funext fun c => congrArg Z (lift_row p c))

/-- The row sum of a block. -/
theorem rowsum_apply (E : FVec Ideal S2000x2 .f32) (p : Fin 2000) :
    multiReduction (F := Ideal) .add [1] S2000 E 0x00000000#32 reduces_S2000x2_S2000 (.inl rfl) rfl (ix1 p)
      = ∑ k : Fin 2, E (ix2 p k) := by
  refine (Ideal.multiReduction_add_single E 0x00000000#32 reduces_S2000x2_S2000 (.inl rfl) rfl (ix1 p)).trans ?_
  exact Finset.sum_congr rfl fun k _ => congrArg E (lift_row p k)

/-- A vector of 2000 entries recast as a column and stretched along the rows reads, at (p, q), its entry p. -/
theorem colStretch_apply (v : FVec Ideal S2000 .f32) (p : Fin 2000) (q : Fin 2) :
    broadcastTo S2000x2 (shapeCast S2000x1 v shapeCasts_S2000_S2000x1) broadcasts_S2000x1_S2000x2 (ix2 p q) = v (ix1 p) :=
  (Cert.ColForm.broadcastCol_apply _ broadcasts_S2000x1_S2000x2 p q).trans
    (Cert.ColForm.col_of_reshape v shapeCasts_S2000_S2000x1 p)

/-- The softmax of the rows of a block of logits, entry (p, q). -/
theorem softmax_core (Z : FVec Ideal S2000x2 .f32) (p : Fin 2000) (q : Fin 2) :
    divf (F := Ideal)
        (exp (subf Z (broadcastTo S2000x2 (shapeCast S2000x1
          (maximumf (broadcast S2000 (Scalar.ofBits (F := Ideal) .f32 0xFF800000#32))
            (multiReduction (F := Ideal) .maximumf [1] S2000 Z 0xFF800000#32 reduces_S2000x2_S2000 (.inl rfl) rfl))
          shapeCasts_S2000_S2000x1) broadcasts_S2000x1_S2000x2)))
        (broadcastTo S2000x2 (shapeCast S2000x1
          (multiReduction (F := Ideal) .add [1] S2000
            (exp (subf Z (broadcastTo S2000x2 (shapeCast S2000x1
              (maximumf (broadcast S2000 (Scalar.ofBits (F := Ideal) .f32 0xFF800000#32))
                (multiReduction (F := Ideal) .maximumf [1] S2000 Z 0xFF800000#32 reduces_S2000x2_S2000 (.inl rfl) rfl))
              shapeCasts_S2000_S2000x1) broadcasts_S2000x1_S2000x2)))
            0x00000000#32 reduces_S2000x2_S2000 (.inl rfl) rfl)
          shapeCasts_S2000_S2000x1) broadcasts_S2000x1_S2000x2) (ix2 p q)
      = Ideal.div
          (Ideal.exp (Z (ix2 p q) - max negInfF ((Finset.univ : Finset (Fin 2)).fold max negInfF (fun c => Z (ix2 p c)))))
          (∑ k : Fin 2, Ideal.exp (Z (ix2 p k) - max negInfF ((Finset.univ : Finset (Fin 2)).fold max negInfF (fun c => Z (ix2 p c))))) := by
  have hexp : ∀ c : Fin 2,
      exp (F := Ideal) (subf Z (broadcastTo S2000x2 (shapeCast S2000x1
          (maximumf (broadcast S2000 (Scalar.ofBits (F := Ideal) .f32 0xFF800000#32))
            (multiReduction (F := Ideal) .maximumf [1] S2000 Z 0xFF800000#32 reduces_S2000x2_S2000 (.inl rfl) rfl))
          shapeCasts_S2000_S2000x1) broadcasts_S2000x1_S2000x2)) (ix2 p c)
        = Ideal.exp (Z (ix2 p c) - max negInfF ((Finset.univ : Finset (Fin 2)).fold max negInfF (fun c => Z (ix2 p c)))) := fun c => by
    show Ideal.exp (Z (ix2 p c) - broadcastTo S2000x2 (shapeCast S2000x1 _ shapeCasts_S2000_S2000x1) broadcasts_S2000x1_S2000x2 (ix2 p c)) = _
    rw [colStretch_apply, rowmax_apply]
  rw [divf_apply, hexp q, colStretch_apply, rowsum_apply]
  exact congrArg (Ideal.div _) (Finset.sum_congr rfl fun k _ => hexp k)

/-- Entry (p, q) of the stored block is the row softmax of the loaded blocks at (p, q). -/
theorem pay2_apply (v0 : Vec Ideal S2000x2 .f32) (v2 : Vec Ideal S2000x1 .f32) (v6 : Vec Ideal S1x2 .f32)
    (p : Fin 2000) (q : Fin 2) :
    k2_pay1 (F := Ideal) v0 v2 v6 (ix2 p q) = softmaxAt v0 v2 v6 p q := by
  dsimp only [k2_pay1]
  refine (softmax_core _ p q).trans ?_
  unfold softmaxAt expAt rowMaxAt
  simp only [logit_apply v0 v2 v6]

end Cert.KernelIdeal.Body

end
-- ==== Proof.Final2.lean ====
/-
  The last dense stage as a whole: point t of the 50 works on rows 2000·t … 2000·t + 1999 of the aggregate and of the
  scale column, reads the bias row whole, and writes those rows of the result. The row blocks tile the 100000 rows, so
  after the region the result array is the row softmax of the arrays the region found, entry by entry.
-/
import proofs.«139141_j43722767073362_2_alg».proof.Proof.Gen.KernelIdeal.Frame
import proofs.«139141_j43722767073362_2_alg».proof.Proof.Body2
import Idealize.ShloMosaic.Lib.Pipeline.Value

set_option maxRecDepth 16384

noncomputable section

open scoped BigOperators

namespace Cert.KernelIdeal.Stage2

open Cert.KernelIdeal Cert.KernelIdeal.Gen Cert.KernelIdeal.Body Cert.Gcn
open Idealize.ShloMosaic Idealize.ShloMosaic.TcCoe Idealize.ShloMosaic.ValueIdx Idealize.SL.Sem
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block index of each window at grid point t: the row-blocked windows are at block row t, the bias row at its
    only block. Decided over the 50 points. -/
theorem idx_w0 : ∀ t : Fin cfg2.N, win2_0.index t (0 : Fin 2) = t.val ∧ win2_0.index t (1 : Fin 2) = 0 :=
  (by decide +kernel : ∀ t : Fin grid2.N, _)
theorem idx_w1 : ∀ t : Fin cfg2.N, win2_1.index t (0 : Fin 2) = t.val ∧ win2_1.index t (1 : Fin 2) = 0 :=
  (by decide +kernel : ∀ t : Fin grid2.N, _)
theorem idx_w2 : ∀ t : Fin cfg2.N, win2_2.index t (0 : Fin 2) = 0 ∧ win2_2.index t (1 : Fin 2) = 0 :=
  (by decide +kernel : ∀ t : Fin grid2.N, _)
theorem idx_w3 : ∀ t : Fin cfg2.N, win2_3.index t (0 : Fin 2) = t.val ∧ win2_3.index t (1 : Fin 2) = 0 :=
  (by decide +kernel : ∀ t : Fin grid2.N, _)

/-- Row p of point t's block of aggregated rows is row 2000·t + p of the aggregate. -/
theorem iblk_agg (c : Dev nD) (t : Fin cfg2.N) (p : Fin 2000) (k : Fin 2) (r : Fin 100000)
    (hr : r.val = t.val * 2000 + p.val) :
    (iblk2 V c 0 t : Vec Ideal S2000x2 .f32) (ix2 p k) = (V c main_v38 : S100000x2.Idx → EReal) (ix2 r k) := by
  obtain ⟨e0, e1⟩ := idx_w0 t
  unfold iblk2
  rw [View.read_apply]
  show V c main_v38 _ = V c main_v38 _
  refine congrArg (V c main_v38) (funext fun a => Fin.ext ?_)
  match a with
  | ⟨0, _⟩ => show win2_0.index t (0 : Fin 2) * 2000 + 1 * p.val = r.val; rw [e0, hr]; omega
  | ⟨1, _⟩ => show win2_0.index t (1 : Fin 2) * 2 + 1 * k.val = k.val; rw [e1]; omega

/-- Row p of point t's scale block is row 2000·t + p of the scale column. -/
theorem iblk_d (c : Dev nD) (t : Fin cfg2.N) (p : Fin 2000) (r : Fin 100000)
    (hr : r.val = t.val * 2000 + p.val) :
    (iblk2 V c 1 t : Vec Ideal S2000x1 .f32) (ix2 p (0 : Fin 1)) = (V c main_v39 : S100000x1.Idx → EReal) (ix2 r (0 : Fin 1)) := by
  obtain ⟨e0, e1⟩ := idx_w1 t
  unfold iblk2
  rw [View.read_apply]
  show V c main_v39 _ = V c main_v39 _
  refine congrArg (V c main_v39) (funext fun a => Fin.ext ?_)
  match a with
  | ⟨0, _⟩ => show win2_1.index t (0 : Fin 2) * 2000 + 1 * p.val = r.val; rw [e0, hr]; omega
  | ⟨1, _⟩ => show win2_1.index t (1 : Fin 2) * 1 + 1 * 0 = 0; rw [e1]

/-- The bias block at every point is the whole bias row. -/
theorem iblk_b (c : Dev nD) (t : Fin cfg2.N) :
    (iblk2 V c 2 t : Vec Ideal S1x2 .f32) = (V c main_v40 : S1x2.Idx → EReal) := by
  obtain ⟨e0, e1⟩ := idx_w2 t
  funext j
  unfold iblk2
  rw [View.read_apply]
  show V c main_v40 _ = V c main_v40 _
  refine congrArg (V c main_v40) (funext fun a => Fin.ext ?_)
  match a with
  | ⟨0, _⟩ => show win2_2.index t (0 : Fin 2) * 1 + 1 * (j 0).val = (j 0).val; rw [e0]; omega
  | ⟨1, _⟩ => show win2_2.index t (1 : Fin 2) * 2 + 1 * (j 1).val = (j 1).val; rw [e1]; omega

/-- Entry (p, q) of what point t stores is entry (2000·t + p, q) of the row softmax of the arrays. -/
theorem stored_apply (c : Dev nD) (t : Fin cfg2.N) (p : Fin 2000) (q : Fin 2) (r : Fin 100000)
    (hr : r.val = t.val * 2000 + p.val) :
    k2_pay1 (F := Ideal) (iblk2 V c 0 t) (iblk2 V c 1 t) (iblk2 V c 2 t) (ix2 p q)
      = softmaxAt (V c main_v38 : S100000x2.Idx → EReal) (V c main_v39 : S100000x1.Idx → EReal) (V c main_v40 : S1x2.Idx → EReal) r q := by
  refine (pay2_apply (iblk2 V c 0 t) (iblk2 V c 1 t) (iblk2 V c 2 t) p q).trans ?_
  rw [iblk_b V c t]
  exact softmaxAt_rows _ _ _ _ _ r p (fun k => iblk_agg V c t p k r hr) (iblk_d V c t p r hr) q

/-- What point t writes back is block t of the row softmax of the arrays as the region finds them. -/
theorem flushed_eq (c : Dev nD) (t : Fin cfg2.N) :
    (dat2 V c).flushed 3 t = ((cfg2.win 3).blk t).view.read (Elt Ideal)
      (softmaxRows (V c main_v38 : S100000x2.Idx → EReal) (V c main_v39 : S100000x1.Idx → EReal) (V c main_v40 : S1x2.Idx → EReal)) := by
  show (cfg2.win 3).cut (grid2.coords t) ((dat2 V c).after 3 t) = _
  rw [after2_3]
  unfold out2_3
  rw [View.canon_unit_zero hz]
  simp only [View.ld_unit_zero (S := S2000x2) hz, View.ld_unit_zero (S := S2000x1) hz, View.ld_unit_zero (S := S1x2) hz]
  obtain ⟨e0, e1⟩ := idx_w3 t
  funext y
  rw [View.read_apply]
  have hy0 : (y 0).val < 2000 := (y 0).isLt
  have hy1 : (y 1).val < 2 := (y 1).isLt
  have ht : t.val < 50 := Nat.lt_of_lt_of_eq t.isLt N_2
  have e := stored_apply V c t ⟨(y 0).val, hy0⟩ ⟨(y 1).val, hy1⟩ ⟨t.val * 2000 + (y 0).val, by omega⟩ rfl
  refine Eq.trans ?_ (e.trans ?_)
  · exact congrArg _ (funext fun a => by match a with | ⟨0, _⟩ => rfl | ⟨1, _⟩ => rfl)
  · unfold softmaxRows
    refine congrArg₂ (softmaxAt _ _ _) (Fin.ext ?_) (Fin.ext ?_)
    · show t.val * 2000 + (y 0).val = win2_3.index t (0 : Fin 2) * 2000 + 1 * (y 0).val; rw [e0]; omega
    · show (y 1).val = win2_3.index t (1 : Fin 2) * 2 + 1 * (y 1).val; rw [e1]; omega

/-- An index of the result array is in point t's block iff its row is among the block's 2000 rows. -/
theorem mem_blk (t : Fin cfg2.N) (i : S100000x2.Idx) :
    i ∈ ((cfg2.win 3).blk t).view.set ↔ ∀ a : Fin 2, win2_3.index t a * S2000x2.size a ≤ (i a).val ∧ (i a).val < win2_3.index t a * S2000x2.size a + S2000x2.size a := by
  show i ∈ ((View.whole main_v41).slice (win2_3.rect t)).set ↔ _
  rw [View.set_slice_whole, Rect.mem_set_unit]
  exact Iff.rfl

/-- Every index of the result array is in the block of the point its row falls to. -/
theorem cover (i : S100000x2.Idx) : ∃ t : Fin cfg2.N, (cfg2.win 3).flush t = true ∧ i ∈ ((cfg2.win 3).blk t).view.set := by
  have hi0 : (i 0).val < 100000 := (i 0).isLt
  have hi1 : (i 1).val < 2 := (i 1).isLt
  have hN : cfg2.N = 50 := N_2
  let t : Fin cfg2.N := ⟨(i 0).val / 2000, by rw [hN]; omega⟩
  obtain ⟨e0, e1⟩ := idx_w3 t
  refine ⟨t, flush2_3 t, ?_⟩
  rw [mem_blk]
  intro a
  match a with
  | ⟨0, _⟩ =>
    show win2_3.index t (0 : Fin 2) * 2000 ≤ (i 0).val ∧ (i 0).val < win2_3.index t (0 : Fin 2) * 2000 + 2000
    rw [e0]; show (i 0).val / 2000 * 2000 ≤ (i 0).val ∧ (i 0).val < (i 0).val / 2000 * 2000 + 2000; omega
  | ⟨1, _⟩ =>
    show win2_3.index t (1 : Fin 2) * 2 ≤ (i 1).val ∧ (i 1).val < win2_3.index t (1 : Fin 2) * 2 + 2
    rw [e1]; omega

/-- After the region the result array is that function of the arrays the region found. -/
theorem final (c : Dev nD) :
    (dat2 V c).arrAt 3 cfg2.N
      = softmaxRows (V c main_v38 : S100000x2.Idx → EReal) (V c main_v39 : S100000x1.Idx → EReal) (V c main_v40 : S1x2.Idx → EReal) :=
  (dat2 V c).arrAt_eq_of_cover 3 _ (fun t _ => flushed_eq V c t) cover

end Cert.KernelIdeal.Stage2

end
-- ==== Proof.KernelValue.lean ====
/-
  The idealized kernel's result as one function of its arguments.

  Between the three dense stages the program works on the host: it counts, for every node, the edges leaving it and the
  edges entering it, and takes the reciprocal square root of each count (at least one) as the node's two scales; after
  each of the first two dense stages it gathers, for every edge, the row of the edge's source node (a negative index
  counted from the end) and adds the gathered rows into the rows of the edges' destination nodes. Following the buffers
  through the six segments — a host stretch computes its operations' values from the contents before it, a dense stage
  leaves in its result array the stage's function of the arrays it found and every other buffer alone — the result
  array ends at the composition below.
-/
import proofs.«139141_j43722767073362_2_alg».proof.Proof.KernelRun
import proofs.«139141_j43722767073362_2_alg».proof.Proof.Final0
import proofs.«139141_j43722767073362_2_alg».proof.Proof.Final1
import proofs.«139141_j43722767073362_2_alg».proof.Proof.Final2

set_option maxRecDepth 16384

noncomputable section

namespace Cert.KernelIdeal.Whole

open Cert.KernelIdeal Cert.KernelIdeal.Gen Cert.Gcn
open Idealize.ShloMosaic Idealize.ShloMosaic.TcCoe Idealize.ShloMosaic.StableHlo Idealize.SL.Sem

/-! ## The host's functions -/

/-- A node's scale: the reciprocal square root of the number of edges naming it (at least one). -/
def norm (ix : (⟨S1600000, .i32⟩ : BufTy).Contents (Elt Ideal)) : (⟨S100000, .f32⟩ : BufTy).Contents (Elt Ideal) :=
  Host.rsqrt (F := Ideal) (maximumf (F := Ideal)
    (Host.scatterAdd (F := Ideal) scatter_S100000_S1600000x1_S1600000_n_0_0_1
      (broadcastInDim S100000 ![] bcast_S_S100000 (constant (F := Ideal) S_ .f32 0x00000000#32))
      (broadcastInDim S1600000x1 ![0] bcast_S1600000_S1600000x1_0 ix)
      (broadcastInDim S1600000 ![] bcast_S_S1600000 (constant (F := Ideal) S_ .f32 0x3F800000#32)))
    (broadcastInDim S100000 ![] bcast_S_S100000 (constant (F := Ideal) S_ .f32 0x3F800000#32)))

/-- The edges' source nodes as gather indices: a negative index is counted from the end. -/
def wrapIdx (ix : (⟨S1600000, .i32⟩ : BufTy).Contents (Elt Ideal)) : (⟨S1600000x1, .i32⟩ : BufTy).Contents (Elt Ideal) :=
  broadcastInDim S1600000x1 ![0] bcast_S1600000_S1600000x1_0
    (select (cmpi .slt ix (broadcastInDim S1600000 ![] bcast_S_S1600000 (constantI S_ 32 0#32)))
      (addi ix (broadcastInDim S1600000 ![] bcast_S_S1600000 (constantI S_ 32 100000#32))) ix)

/-- The rows of the source nodes added into the rows of the destination nodes, 128 columns wide. -/
def aggWide (x : (⟨S100000x128, .f32⟩ : BufTy).Contents (Elt Ideal)) (src dst : (⟨S1600000, .i32⟩ : BufTy).Contents (Elt Ideal)) :
    (⟨S100000x128, .f32⟩ : BufTy).Contents (Elt Ideal) :=
  Host.scatterAdd (F := Ideal) scatter_S100000x128_S1600000x1_S1600000x128_1_0_0_1
    (broadcastInDim S100000x128 ![] bcast_S_S100000x128 (constant (F := Ideal) S_ .f32 0x00000000#32))
    (broadcastInDim S1600000x1 ![0] bcast_S1600000_S1600000x1_0 dst)
    (Host.gather gather_S100000x128_S1600000x1_S1600000x128_1_0_n_n_0_1_1128 x (wrapIdx src))

/-- The same, 2 columns wide. -/
def aggNarrow (x : (⟨S100000x2, .f32⟩ : BufTy).Contents (Elt Ideal)) (src dst : (⟨S1600000, .i32⟩ : BufTy).Contents (Elt Ideal)) :
    (⟨S100000x2, .f32⟩ : BufTy).Contents (Elt Ideal) :=
  Host.scatterAdd (F := Ideal) scatter_S100000x2_S1600000x1_S1600000x2_1_0_0_1
    (broadcastInDim S100000x2 ![] bcast_S_S100000x2 (constant (F := Ideal) S_ .f32 0x00000000#32))
    (broadcastInDim S1600000x1 ![0] bcast_S1600000_S1600000x1_0 dst)
    (Host.gather gather_S100000x2_S1600000x1_S1600000x2_1_0_n_n_0_1_12 x (wrapIdx src))

/-- A vector of node scales as a column. -/
def col (v : (⟨S100000, .f32⟩ : BufTy).Contents (Elt Ideal)) : (⟨S100000x1, .f32⟩ : BufTy).Contents (Elt Ideal) :=
  shapeCast S100000x1 v shapeCasts_S100000_S100000x1

/-- The result as a function of the arguments. -/
def result (x0 : (⟨S100000x512, .f32⟩ : BufTy).Contents (Elt Ideal)) (x1 : (⟨S512x128, .f32⟩ : BufTy).Contents (Elt Ideal))
    (x2 : (⟨S128, .f32⟩ : BufTy).Contents (Elt Ideal)) (x3 : (⟨S128x2, .f32⟩ : BufTy).Contents (Elt Ideal))
    (x4 : (⟨S2, .f32⟩ : BufTy).Contents (Elt Ideal)) (x5 x6 : (⟨S1600000, .i32⟩ : BufTy).Contents (Elt Ideal)) :
    (⟨S100000x2, .f32⟩ : BufTy).Contents (Elt Ideal) :=
  softmaxRows
    (aggNarrow (hiddenProd (aggWide (prodScale x0 x1 (col (norm x5))) x5 x6) (col (norm x6))
      (shapeCast S1x128 x2 shapeCasts_S128_S1x128) x3 (col (norm x5))) x5 x6)
    (col (norm x6)) (shapeCast S1x2 x4 shapeCasts_S2_S1x2)

/-! ## The first host stretch, from any contents -/

section Stretches

variable (X : Valuation τ sig (Elt Ideal))

theorem s0_v13 : after (hostOps0 (F := Ideal)) X (Proc.devRef .tc main_v13) = col (norm (X (Proc.devRef .tc main_arg5))) := by
  unfold hostOps0; after_results; rfl
theorem s0_v9 : after (hostOps0 (F := Ideal)) X (Proc.devRef .tc main_v9) = norm (X (Proc.devRef .tc main_arg5)) := by
  unfold hostOps0; after_results; rfl
theorem s0_v12 : after (hostOps0 (F := Ideal)) X (Proc.devRef .tc main_v12) = norm (X (Proc.devRef .tc main_arg6)) := by
  unfold hostOps0; after_results; rfl
theorem s0_arg0 : after (hostOps0 (F := Ideal)) X (Proc.devRef .tc main_arg0) = X (Proc.devRef .tc main_arg0) := by
  unfold hostOps0; after_results
theorem s0_arg1 : after (hostOps0 (F := Ideal)) X (Proc.devRef .tc main_arg1) = X (Proc.devRef .tc main_arg1) := by
  unfold hostOps0; after_results
theorem s0_arg2 : after (hostOps0 (F := Ideal)) X (Proc.devRef .tc main_arg2) = X (Proc.devRef .tc main_arg2) := by
  unfold hostOps0; after_results
theorem s0_arg3 : after (hostOps0 (F := Ideal)) X (Proc.devRef .tc main_arg3) = X (Proc.devRef .tc main_arg3) := by
  unfold hostOps0; after_results
theorem s0_arg4 : after (hostOps0 (F := Ideal)) X (Proc.devRef .tc main_arg4) = X (Proc.devRef .tc main_arg4) := by
  unfold hostOps0; after_results
theorem s0_arg5 : after (hostOps0 (F := Ideal)) X (Proc.devRef .tc main_arg5) = X (Proc.devRef .tc main_arg5) := by
  unfold hostOps0; after_results
theorem s0_arg6 : after (hostOps0 (F := Ideal)) X (Proc.devRef .tc main_arg6) = X (Proc.devRef .tc main_arg6) := by
  unfold hostOps0; after_results

/-! ## The second and third host stretches, from any contents -/

theorem s1_v24 : after (hostOps1 (F := Ideal)) X (Proc.devRef .tc main_v24) = aggWide (X (Proc.devRef .tc main_v14)) (X (Proc.devRef .tc main_arg5)) (X (Proc.devRef .tc main_arg6)) := by
  unfold hostOps1; after_results; rfl
theorem s1_v25 : after (hostOps1 (F := Ideal)) X (Proc.devRef .tc main_v25) = col (X (Proc.devRef .tc main_v12)) := by
  unfold hostOps1; after_results; rfl
theorem s1_v26 : after (hostOps1 (F := Ideal)) X (Proc.devRef .tc main_v26) = col (X (Proc.devRef .tc main_v9)) := by
  unfold hostOps1; after_results; rfl
theorem s1_v27 : after (hostOps1 (F := Ideal)) X (Proc.devRef .tc main_v27) = shapeCast S1x128 (X (Proc.devRef .tc main_arg2)) shapeCasts_S128_S1x128 := by
  unfold hostOps1; after_results; rfl
theorem s1_arg3 : after (hostOps1 (F := Ideal)) X (Proc.devRef .tc main_arg3) = X (Proc.devRef .tc main_arg3) := by
  unfold hostOps1; after_results
theorem s1_arg4 : after (hostOps1 (F := Ideal)) X (Proc.devRef .tc main_arg4) = X (Proc.devRef .tc main_arg4) := by
  unfold hostOps1; after_results
theorem s1_arg5 : after (hostOps1 (F := Ideal)) X (Proc.devRef .tc main_arg5) = X (Proc.devRef .tc main_arg5) := by
  unfold hostOps1; after_results
theorem s1_arg6 : after (hostOps1 (F := Ideal)) X (Proc.devRef .tc main_arg6) = X (Proc.devRef .tc main_arg6) := by
  unfold hostOps1; after_results
theorem s1_v12 : after (hostOps1 (F := Ideal)) X (Proc.devRef .tc main_v12) = X (Proc.devRef .tc main_v12) := by
  unfold hostOps1; after_results

theorem s2_v38 : after (hostOps2 (F := Ideal)) X (Proc.devRef .tc main_v38) = aggNarrow (X (Proc.devRef .tc main_v28)) (X (Proc.devRef .tc main_arg5)) (X (Proc.devRef .tc main_arg6)) := by
  unfold hostOps2; after_results; rfl
theorem s2_v39 : after (hostOps2 (F := Ideal)) X (Proc.devRef .tc main_v39) = col (X (Proc.devRef .tc main_v12)) := by
  unfold hostOps2; after_results; rfl
theorem s2_v40 : after (hostOps2 (F := Ideal)) X (Proc.devRef .tc main_v40) = shapeCast S1x2 (X (Proc.devRef .tc main_arg4)) shapeCasts_S2_S1x2 := by
  unfold hostOps2; after_results; rfl

end Stretches

/-! ## Through the six segments -/

variable (m : (ℓ : Loc nD τ sig) → Buf (Elt Ideal) ℓ) (ρ : Dev nD → PrngReg)

/-- The first dense stage's result array at the region's exit. -/
theorem w2_v14 (c : Dev nD) : W2 m ρ c (Proc.devRef .tc main_v14)
    = prodScale (m ((c : Thread nD τ).loc main_arg0)) (m ((c : Thread nD τ).loc main_arg1)) (col (norm (m ((c : Thread nD τ).loc main_arg5)))) := by
  refine (W2_arr m ρ c 3).trans ((Stage0.final (V1 m ρ) c).trans ?_)
  show prodScale (after (hostOps0 (F := Ideal)) (W0 m ρ c) (Proc.devRef .tc main_arg0)) (after (hostOps0 (F := Ideal)) (W0 m ρ c) (Proc.devRef .tc main_arg1)) (after (hostOps0 (F := Ideal)) (W0 m ρ c) (Proc.devRef .tc main_v13)) = _
  rw [s0_arg0, s0_arg1, s0_v13]

/-- A buffer the first dense stage does not own, at the region's exit, holds what the first stretch left. -/
theorem w2_keep (c : Dev nD) (b : Ref sig .tc) (hb : ∀ w, Pipeline.arrRef spec0 w ≠ b) :
    W2 m ρ c (Proc.devRef .tc b) = after (hostOps0 (F := Ideal)) (W0 m ρ c) (Proc.devRef .tc b) := W2_of_ne m ρ c b hb

/-- The second dense stage's result array at the region's exit. -/
theorem w4_v28 (c : Dev nD) : W4 m ρ c (Proc.devRef .tc main_v28)
    = hiddenProd (aggWide (prodScale (m ((c : Thread nD τ).loc main_arg0)) (m ((c : Thread nD τ).loc main_arg1)) (col (norm (m ((c : Thread nD τ).loc main_arg5)))))
          (m ((c : Thread nD τ).loc main_arg5)) (m ((c : Thread nD τ).loc main_arg6)))
        (col (norm (m ((c : Thread nD τ).loc main_arg6)))) (shapeCast S1x128 (m ((c : Thread nD τ).loc main_arg2)) shapeCasts_S128_S1x128)
        (m ((c : Thread nD τ).loc main_arg3)) (col (norm (m ((c : Thread nD τ).loc main_arg5)))) := by
  refine (W4_arr m ρ c 5).trans ((Stage1.final (V3 m ρ) c).trans ?_)
  show hiddenProd (after (hostOps1 (F := Ideal)) (W2 m ρ c) (Proc.devRef .tc main_v24)) (after (hostOps1 (F := Ideal)) (W2 m ρ c) (Proc.devRef .tc main_v25)) (after (hostOps1 (F := Ideal)) (W2 m ρ c) (Proc.devRef .tc main_v27))
      (after (hostOps1 (F := Ideal)) (W2 m ρ c) (Proc.devRef .tc main_arg3)) (after (hostOps1 (F := Ideal)) (W2 m ρ c) (Proc.devRef .tc main_v26)) = _
  rw [s1_v24, s1_v25, s1_v27, s1_arg3, s1_v26, w2_v14,
    w2_keep m ρ c main_arg5 (by decide), w2_keep m ρ c main_arg6 (by decide), w2_keep m ρ c main_v12 (by decide),
    w2_keep m ρ c main_arg2 (by decide), w2_keep m ρ c main_arg3 (by decide), w2_keep m ρ c main_v9 (by decide),
    s0_arg5, s0_arg6, s0_v12, s0_arg2, s0_arg3, s0_v9]

/-- A buffer the second dense stage does not own, at the region's exit, holds what the second stretch left. -/
theorem w4_keep (c : Dev nD) (b : Ref sig .tc) (hb : ∀ w, Pipeline.arrRef spec1 w ≠ b) :
    W4 m ρ c (Proc.devRef .tc b) = after (hostOps1 (F := Ideal)) (W2 m ρ c) (Proc.devRef .tc b) := W4_of_ne m ρ c b hb

/-- The result array at the end: the composition of the stages. -/
theorem w6_out (c : Dev nD) : W6 m ρ c (Proc.devRef .tc main_v41)
    = result (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5))
        (m ((c : Thread nD τ).loc main_arg6)) := by
  refine (W6_arr m ρ c 3).trans ((Stage2.final (V5 m ρ) c).trans ?_)
  show softmaxRows (after (hostOps2 (F := Ideal)) (W4 m ρ c) (Proc.devRef .tc main_v38)) (after (hostOps2 (F := Ideal)) (W4 m ρ c) (Proc.devRef .tc main_v39)) (after (hostOps2 (F := Ideal)) (W4 m ρ c) (Proc.devRef .tc main_v40)) = _
  rw [s2_v38, s2_v39, s2_v40, w4_v28,
    w4_keep m ρ c main_arg5 (by decide), w4_keep m ρ c main_arg6 (by decide), w4_keep m ρ c main_v12 (by decide),
    w4_keep m ρ c main_arg4 (by decide),
    s1_arg5, s1_arg6, s1_v12, s1_arg4,
    w2_keep m ρ c main_arg5 (by decide), w2_keep m ρ c main_arg6 (by decide), w2_keep m ρ c main_v12 (by decide),
    w2_keep m ρ c main_arg4 (by decide),
    s0_arg5, s0_arg6, s0_v12, s0_arg4]
  rfl

/-- The run, read: every weakly fair execution terminates with the result array at `result` of the arguments and the
    arguments unchanged. -/
theorem run : θ_run defs (onTc (τ := τ) (main (F := Ideal))) ⟨m, fun _ => 0, ρ⟩ (fun r => ∀ c : Dev nD,
      r.2.mem ((c.tc : Thread nD τ).loc main_v41)
        = result (m ((c : Thread nD τ).loc main_arg0)) (m ((c : Thread nD τ).loc main_arg1)) (m ((c : Thread nD τ).loc main_arg2))
            (m ((c : Thread nD τ).loc main_arg3)) (m ((c : Thread nD τ).loc main_arg4)) (m ((c : Thread nD τ).loc main_arg5))
            (m ((c : Thread nD τ).loc main_arg6))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun r h c => ⟨(h c).1.trans (w6_out m ρ c), (h c).2⟩) (run_out m ρ)

end Cert.KernelIdeal.Whole

end
-- ==== Proof.Ref0.lean ====
/-
  The reference's first dense stage, read entry by entry, is the scaled product of its operands: a matrix product over
  all 100000 rows, the scale vector recast as a column and stretched along the rows, and an entrywise product. The scale
  column is taken as any one-column matrix holding the scales.
-/
import proofs.«139141_j43722767073362_2_alg».proof.Proof.Gen.ReferenceIdeal.Run
import proofs.«139141_j43722767073362_2_alg».proof.Proof.Gen.ReferenceIdeal.Read
import proofs.«139141_j43722767073362_2_alg».proof.Proof.Spec

noncomputable section

open scoped BigOperators

namespace Cert.ReferenceIdeal.Stages

open Cert.ReferenceIdeal Cert.ReferenceIdeal.Read Cert.Gcn Idealize.ShloMosaic Idealize.ShloMosaic.ValueIdx

/-! ## The first layer's scaled product -/

theorem v16_eq (x0 : (⟨S100000x512, .f32⟩ : BufTy).Contents (Elt Ideal)) (x1 : (⟨S512x128, .f32⟩ : BufTy).Contents (Elt Ideal)) (x5 : (⟨S1600000, .i32⟩ : BufTy).Contents (Elt Ideal)) (s : S100000x1.Idx → EReal)
    (hs : ∀ r : Fin 100000, s (ix2 r (0 : Fin 1)) = val_main_v9 (F := Ideal) x5 (ix1 r)) :
    val_main_v16 (F := Ideal) x0 x1 x5 = prodScale x0 x1 s := by
  funext i
  obtain ⟨r, q, rfl⟩ : ∃ (r : Fin 100000) (q : Fin 128), i = ix2 r q := ⟨i 0, i 1, eq_ix2 i⟩
  rw [val_main_v16_apply, val_main_v13_apply, val_main_v15_apply, val_main_v14_apply]
  show (∑ k : Fin 512, x0 (lidx_main_v13 (ix2 r q) k) * x1 (ridx_main_v13 (ix2 r q) k))
        * val_main_v9 (F := Ideal) x5 (idx_main_v14 (idx_main_v15 (ix2 r q)))
      = prodScaleAt x0 x1 s r q
  unfold prodScaleAt
  have e1 : idx_main_v14 (idx_main_v15 (ix2 r q)) = ix1 r := funext fun a => Fin.ext (by match a with | ⟨0, _⟩ => rfl)
  have el : ∀ k : Fin 512, lidx_main_v13 (ix2 r q) k = ix2 r k := fun k => funext fun a => Fin.ext (by match a with | ⟨0, _⟩ => rfl | ⟨1, _⟩ => rfl)
  have er : ∀ k : Fin 512, ridx_main_v13 (ix2 r q) k = ix2 k q := fun k => funext fun a => Fin.ext (by match a with | ⟨0, _⟩ => rfl | ⟨1, _⟩ => rfl)
  rw [hs r, e1]
  exact congrArg (fun z => z * val_main_v9 (F := Ideal) x5 (ix1 r)) (Finset.sum_congr rfl fun k _ => by rw [el k, er k])

end Cert.ReferenceIdeal.Stages

end
-- ==== Proof.Ref1.lean ====
/-
  The reference's second dense stage, read entry by entry, is the hidden layer's scaled output of its operands: the
  aggregate times a stretched scale column, plus a stretched bias row, clipped below at zero, a matrix product over all
  100000 rows, and an entrywise product with a second stretched scale column. The scale columns and the bias row are
  taken as any one-column and one-row matrices holding the scales and the biases.
-/
import proofs.«139141_j43722767073362_2_alg».proof.Proof.Gen.ReferenceIdeal.Run
import proofs.«139141_j43722767073362_2_alg».proof.Proof.Gen.ReferenceIdeal.Read
import proofs.«139141_j43722767073362_2_alg».proof.Proof.Spec

noncomputable section

open scoped BigOperators

namespace Cert.ReferenceIdeal.Stages

open Cert.ReferenceIdeal Cert.ReferenceIdeal.Read Cert.Gcn Idealize.ShloMosaic Idealize.ShloMosaic.ValueIdx

/-! ## The hidden layer -/

section Hidden

variable (x0 : (⟨S100000x512, .f32⟩ : BufTy).Contents (Elt Ideal)) (x1 : (⟨S512x128, .f32⟩ : BufTy).Contents (Elt Ideal)) (x2 : (⟨S128, .f32⟩ : BufTy).Contents (Elt Ideal)) (x3 : (⟨S128x2, .f32⟩ : BufTy).Contents (Elt Ideal)) (x5 x6 : (⟨S1600000, .i32⟩ : BufTy).Contents (Elt Ideal))
  (d : S100000x1.Idx → EReal) (b : S1x128.Idx → EReal) (s : S100000x1.Idx → EReal)
  (hd : ∀ r : Fin 100000, d (ix2 r (0 : Fin 1)) = val_main_v12 (F := Ideal) x6 (ix1 r))
  (hb : ∀ k : Fin 128, b (ix2 (0 : Fin 1) k) = x2 (ix1 k))
  (hs : ∀ r : Fin 100000, s (ix2 r (0 : Fin 1)) = val_main_v9 (F := Ideal) x5 (ix1 r))

include hd hb in
/-- Entry (r, k) of the reference's clipped activations. -/
theorem hid_eq (r : Fin 100000) (k : Fin 128) :
    val_main_v33 (F := Ideal) x0 x1 x2 x5 x6 (ix2 r k) = hiddenAt (val_main_v26 (F := Ideal) x0 x1 x5 x6) d b r k := by
  rw [val_main_v33_apply, val_main_v32_apply, val_main_v29_apply, val_main_v28_apply, val_main_v27_apply,
    val_main_v31_apply, val_main_v30_apply, val_main_call0_v0_apply, val_main_call0_cst_apply]
  unfold hiddenAt
  have e1 : idx_main_v27 (idx_main_v28 (ix2 r k)) = ix1 r := funext fun a => Fin.ext (by match a with | ⟨0, _⟩ => rfl)
  have e2 : idx_main_v30 (idx_main_v31 (ix2 r k)) = ix1 k := funext fun a => Fin.ext (by match a with | ⟨0, _⟩ => rfl)
  rw [hd r, hb k, e1, e2]
  rfl

include hd hb hs in
theorem v37_eq :
    val_main_v37 (F := Ideal) x0 x1 x2 x3 x5 x6 = hiddenProd (val_main_v26 (F := Ideal) x0 x1 x5 x6) d b x3 s := by
  funext i
  obtain ⟨r, q, rfl⟩ : ∃ (r : Fin 100000) (q : Fin 2), i = ix2 r q := ⟨i 0, i 1, eq_ix2 i⟩
  rw [val_main_v37_apply, val_main_v34_apply, val_main_v36_apply, val_main_v35_apply]
  show (∑ k : Fin 128, val_main_v33 (F := Ideal) x0 x1 x2 x5 x6 (lidx_main_v34 (ix2 r q) k) * x3 (ridx_main_v34 (ix2 r q) k))
        * val_main_v9 (F := Ideal) x5 (idx_main_v35 (idx_main_v36 (ix2 r q)))
      = hiddenProdAt (val_main_v26 (F := Ideal) x0 x1 x5 x6) d b x3 s r q
  unfold hiddenProdAt
  have e1 : idx_main_v35 (idx_main_v36 (ix2 r q)) = ix1 r := funext fun a => Fin.ext (by match a with | ⟨0, _⟩ => rfl)
  have el : ∀ k : Fin 128, lidx_main_v34 (ix2 r q) k = ix2 r k := fun k => funext fun a => Fin.ext (by match a with | ⟨0, _⟩ => rfl | ⟨1, _⟩ => rfl)
  have er : ∀ k : Fin 128, ridx_main_v34 (ix2 r q) k = ix2 k q := fun k => funext fun a => Fin.ext (by match a with | ⟨0, _⟩ => rfl | ⟨1, _⟩ => rfl)
  rw [hs r, e1]
  exact congrArg (fun z => z * val_main_v9 (F := Ideal) x5 (ix1 r)) (Finset.sum_congr rfl fun k _ => by rw [el k, er k, hid_eq x0 x1 x2 x5 x6 d b hd hb r k])

end Hidden

end Cert.ReferenceIdeal.Stages

end
-- ==== Proof.Ref2.lean ====
/-
  The reference's last dense stage, read entry by entry, is the row softmax of its operands: the aggregate times a
  stretched scale column plus a stretched bias row (the logits), the row maximum, the difference, the exponential, the row
  sum and the quotient. The scale column and the bias row are taken as any one-column and one-row matrices holding the
  scales and the biases.
-/
import proofs.«139141_j43722767073362_2_alg».proof.Proof.Gen.ReferenceIdeal.Run
import proofs.«139141_j43722767073362_2_alg».proof.Proof.Gen.ReferenceIdeal.Read
import proofs.«139141_j43722767073362_2_alg».proof.Proof.Spec

noncomputable section

open scoped BigOperators

namespace Cert.ReferenceIdeal.Stages

open Cert.ReferenceIdeal Cert.ReferenceIdeal.Gen Cert.ReferenceIdeal.Read Cert.Gcn Idealize.ShloMosaic Idealize.ShloMosaic.ValueIdx

/-! ## The row softmax -/

/-- The largest entry of a row of a 100000×2 array, as the host's reduction computes it from the least extended real. -/
theorem reduce_max_row (Z : (⟨S100000x2, .f32⟩ : BufTy).Contents (Elt Ideal)) (r : Fin 100000) :
    Host.reduce (FloatOps.maximumf (F := Ideal) (φ := .f32)) Z (val_main_cst_9 (F := Ideal)) reducesTo_S100000x2_S100000_d1 h_S_ (ix1 r)
      = (Finset.univ : Finset (Fin 2)).fold max negInfF (fun c => Z (ix2 r c)) := by
  haveI : Std.Commutative (FloatOps.maximumf (F := Ideal) (φ := .f32)) := ⟨fun a b => max_comm a b⟩
  haveI : Std.Associative (FloatOps.maximumf (F := Ideal) (φ := .f32)) := ⟨fun a b c => max_assoc a b c⟩
  refine (Host.reduce_eq_fold_single (FloatOps.maximumf (F := Ideal) (φ := .f32)) Z (val_main_cst_9 (F := Ideal))
    reducesTo_S100000x2_S100000_d1 (by decide) h_S_ (ix1 r)).trans ?_
  refine congrArg (fun f => (Finset.univ : Finset (Fin 2)).fold max negInfF f) (funext fun c => congrArg Z ?_)
  exact funext fun a => Fin.ext (by match a with | ⟨0, _⟩ => rfl | ⟨1, _⟩ => rfl)

section Softmax

variable (x0 : (⟨S100000x512, .f32⟩ : BufTy).Contents (Elt Ideal)) (x1 : (⟨S512x128, .f32⟩ : BufTy).Contents (Elt Ideal)) (x2 : (⟨S128, .f32⟩ : BufTy).Contents (Elt Ideal)) (x3 : (⟨S128x2, .f32⟩ : BufTy).Contents (Elt Ideal)) (x4 : (⟨S2, .f32⟩ : BufTy).Contents (Elt Ideal)) (x5 x6 : (⟨S1600000, .i32⟩ : BufTy).Contents (Elt Ideal))
  (d : S100000x1.Idx → EReal) (b : S1x2.Idx → EReal)
  (hd : ∀ r : Fin 100000, d (ix2 r (0 : Fin 1)) = val_main_v12 (F := Ideal) x6 (ix1 r))
  (hb : ∀ c : Fin 2, b (ix2 (0 : Fin 1) c) = x4 (ix1 c))

include hd hb in
/-- Entry (r, c) of the reference's logits. -/
theorem logit_eq (r : Fin 100000) (c : Fin 2) :
    val_main_v53 (F := Ideal) x0 x1 x2 x3 x4 x5 x6 (ix2 r c)
      = logitAt (val_main_v47 (F := Ideal) x0 x1 x2 x3 x5 x6) d b r c := by
  rw [val_main_v53_apply, val_main_v50_apply, val_main_v49_apply, val_main_v48_apply, val_main_v52_apply, val_main_v51_apply]
  unfold logitAt
  have e1 : idx_main_v48 (idx_main_v49 (ix2 r c)) = ix1 r := funext fun a => Fin.ext (by match a with | ⟨0, _⟩ => rfl)
  have e2 : idx_main_v51 (idx_main_v52 (ix2 r c)) = ix1 c := funext fun a => Fin.ext (by match a with | ⟨0, _⟩ => rfl)
  rw [hd r, hb c, e1, e2]
  rfl

include hd hb in
/-- The reference's row maximum. -/
theorem rowmax_eq (r : Fin 100000) :
    val_main_v56 (F := Ideal) x0 x1 x2 x3 x4 x5 x6 (ix1 r)
      = rowMaxAt (val_main_v47 (F := Ideal) x0 x1 x2 x3 x5 x6) d b r := by
  rw [val_main_v56_apply, val_main_v55_apply, val_main_cst_10_apply]
  unfold rowMaxAt val_main_v54
  have hl : (fun c : Fin 2 => val_main_v53 (F := Ideal) x0 x1 x2 x3 x4 x5 x6 (ix2 r c))
      = fun c => logitAt (val_main_v47 (F := Ideal) x0 x1 x2 x3 x5 x6) d b r c :=
    funext fun c => logit_eq x0 x1 x2 x3 x4 x5 x6 d b hd hb r c
  rw [reduce_max_row, hl, Ideal.maximumf_def, Ideal.ofBits_def]

include hd hb in
/-- Entry (r, c) of the reference's exponentials. -/
theorem exp_eq (r : Fin 100000) (c : Fin 2) :
    val_main_v60 (F := Ideal) x0 x1 x2 x3 x4 x5 x6 (ix2 r c)
      = expAt (val_main_v47 (F := Ideal) x0 x1 x2 x3 x5 x6) d b r c := by
  rw [val_main_v60_apply, val_main_v59_apply, val_main_v58_apply, val_main_v57_apply]
  unfold expAt
  have e1 : idx_main_v57 (idx_main_v58 (ix2 r c)) = ix1 r := funext fun a => Fin.ext (by match a with | ⟨0, _⟩ => rfl)
  rw [e1, logit_eq x0 x1 x2 x3 x4 x5 x6 d b hd hb r c, rowmax_eq x0 x1 x2 x3 x4 x5 x6 d b hd hb r,
    Ideal.hostUnary_exp_def, Ideal.subf_def]

include hd hb in
theorem v64_eq :
    val_main_v64 (F := Ideal) x0 x1 x2 x3 x4 x5 x6 = softmaxRows (val_main_v47 (F := Ideal) x0 x1 x2 x3 x5 x6) d b := by
  funext i
  obtain ⟨r, q, rfl⟩ : ∃ (r : Fin 100000) (q : Fin 2), i = ix2 r q := ⟨i 0, i 1, eq_ix2 i⟩
  have ek : ∀ k : Fin 2, idx_main_v61 (idx_main_v62 (idx_main_v63 (ix2 r q))) k = ix2 r k := fun k => funext fun a => Fin.ext (by match a with | ⟨0, _⟩ => rfl | ⟨1, _⟩ => rfl)
  rw [val_main_v64_apply, val_main_v63_apply, val_main_v62_apply, val_main_v61_apply, val_main_cst_11_apply,
    Ideal.hostDivf_def, Ideal.ofBits_def, Ideal.ofBits_zero_f32, zero_add, exp_eq x0 x1 x2 x3 x4 x5 x6 d b hd hb r q]
  show Ideal.div _ _ = softmaxAt (val_main_v47 (F := Ideal) x0 x1 x2 x3 x5 x6) d b r q
  unfold softmaxAt
  exact congrArg (Ideal.div (expAt (val_main_v47 (F := Ideal) x0 x1 x2 x3 x5 x6) d b r q))
    (Finset.sum_congr rfl fun k _ => by rw [ek k, exp_eq x0 x1 x2 x3 x4 x5 x6 d b hd hb r k])

end Softmax

end Cert.ReferenceIdeal.Stages

end
-- ==== Proof.LibRowForm.lean ====
/-
  A vector recast as a one-row matrix, read at an index.
-/
import Idealize.ShloMosaic.Lib.ValueIdx
import Idealize.ShloMosaic.Lib.Pipeline.Value

namespace Cert.RowForm

open Idealize.ShloMosaic

/-- A vector of length `n` recast as a `1 × n` matrix, read at row `0` and column `j`, is the vector at `j`. -/
theorem row_of_reshape {α : Type} {n : Nat} (v : (⟨1, ![n]⟩ : Shape).Idx → α)
    (h : (⟨1, ![n]⟩ : Shape).ShapeCasts ⟨2, ![1, n]⟩) (j : Fin n) :
    shapeCast (⟨2, ![1, n]⟩ : Shape) v h (ValueIdx.ix2 (0 : Fin 1) j) = v (ValueIdx.ix1 j) := by
  rw [shapeCast_addUnit_apply ![n] v h]
  congr 1
  funext a
  match a with
  | ⟨0, _⟩ => rfl

end Cert.RowForm
-- ==== Proof.Bridge.lean ====
/-
  The two programs compute one function.

  The reference's host operations between its dense stages are the kernel program's own: the same counts of edges per
  node and reciprocal square roots, the same gather of source rows and sum into destination rows. Each dense stage of the
  reference is the same function of its operands as the kernel's (the scaled product, the hidden layer's scaled output,
  the row softmax), the scale columns and bias rows being the same vectors recast. So, stage by stage from the
  arguments, the reference's result is the kernel program's.
-/
import proofs.«139141_j43722767073362_2_alg».proof.Proof.KernelValue
import proofs.«139141_j43722767073362_2_alg».proof.Proof.Ref0
import proofs.«139141_j43722767073362_2_alg».proof.Proof.Ref1
import proofs.«139141_j43722767073362_2_alg».proof.Proof.Ref2
import proofs.«139141_j43722767073362_2_alg».proof.Proof.LibColForm
import proofs.«139141_j43722767073362_2_alg».proof.Proof.LibRowForm

set_option maxRecDepth 16384

noncomputable section

namespace Cert.Bridge

open Cert.Gcn Idealize.ShloMosaic Idealize.ShloMosaic.ValueIdx
open Cert.KernelIdeal.Whole Cert.ReferenceIdeal.Read

/-- The reference's source-side scales are the kernel program's. -/
theorem norm_src (x5 : (⟨Cert.KernelIdeal.S1600000, .i32⟩ : BufTy).Contents (Elt Ideal)) : val_main_v9 (F := Ideal) x5 = norm x5 := rfl

/-- The reference's destination-side scales are the kernel program's. -/
theorem norm_dst (x6 : (⟨Cert.KernelIdeal.S1600000, .i32⟩ : BufTy).Contents (Elt Ideal)) : val_main_v12 (F := Ideal) x6 = norm x6 := rfl

/-- A scale column holds the scales. -/
theorem col_apply (v : (⟨Cert.KernelIdeal.S100000, .f32⟩ : BufTy).Contents (Elt Ideal)) (r : Fin 100000) : col v (ix2 r (0 : Fin 1)) = v (ix1 r) :=
  Cert.ColForm.col_of_reshape v Cert.KernelIdeal.Gen.shapeCasts_S100000_S100000x1 r

variable (x0 : (⟨Cert.KernelIdeal.S100000x512, .f32⟩ : BufTy).Contents (Elt Ideal)) (x1 : (⟨Cert.KernelIdeal.S512x128, .f32⟩ : BufTy).Contents (Elt Ideal)) (x2 : (⟨Cert.KernelIdeal.S128, .f32⟩ : BufTy).Contents (Elt Ideal)) (x3 : (⟨Cert.KernelIdeal.S128x2, .f32⟩ : BufTy).Contents (Elt Ideal)) (x4 : (⟨Cert.KernelIdeal.S2, .f32⟩ : BufTy).Contents (Elt Ideal)) (x5 x6 : (⟨Cert.KernelIdeal.S1600000, .i32⟩ : BufTy).Contents (Elt Ideal))

/-- The first layer's scaled product. -/
theorem stage0 : val_main_v16 (F := Ideal) x0 x1 x5 = prodScale x0 x1 (col (norm x5)) :=
  Cert.ReferenceIdeal.Stages.v16_eq x0 x1 x5 (col (norm x5)) fun r => (col_apply (norm x5) r).trans (congrFun (norm_src x5).symm _)

/-- The first aggregation. -/
theorem agg0 : val_main_v26 (F := Ideal) x0 x1 x5 x6 = aggWide (val_main_v16 (F := Ideal) x0 x1 x5) x5 x6 := rfl

/-- The hidden layer's scaled output. -/
theorem stage1 : val_main_v37 (F := Ideal) x0 x1 x2 x3 x5 x6
    = hiddenProd (val_main_v26 (F := Ideal) x0 x1 x5 x6) (col (norm x6))
        (shapeCast Cert.KernelIdeal.S1x128 x2 Cert.KernelIdeal.Gen.shapeCasts_S128_S1x128) x3 (col (norm x5)) :=
  Cert.ReferenceIdeal.Stages.v37_eq x0 x1 x2 x3 x5 x6 _ _ _
    (fun r => (col_apply (norm x6) r).trans (congrFun (norm_dst x6).symm _))
    (fun k => Cert.RowForm.row_of_reshape x2 Cert.KernelIdeal.Gen.shapeCasts_S128_S1x128 k)
    (fun r => (col_apply (norm x5) r).trans (congrFun (norm_src x5).symm _))

/-- The second aggregation. -/
theorem agg1 : val_main_v47 (F := Ideal) x0 x1 x2 x3 x5 x6 = aggNarrow (val_main_v37 (F := Ideal) x0 x1 x2 x3 x5 x6) x5 x6 := rfl

/-- The row softmax. -/
theorem stage2 : val_main_v64 (F := Ideal) x0 x1 x2 x3 x4 x5 x6
    = softmaxRows (val_main_v47 (F := Ideal) x0 x1 x2 x3 x5 x6) (col (norm x6))
        (shapeCast Cert.KernelIdeal.S1x2 x4 Cert.KernelIdeal.Gen.shapeCasts_S2_S1x2) :=
  Cert.ReferenceIdeal.Stages.v64_eq x0 x1 x2 x3 x4 x5 x6 _ _
    (fun r => (col_apply (norm x6) r).trans (congrFun (norm_dst x6).symm _))
    (fun c => Cert.RowForm.row_of_reshape x4 Cert.KernelIdeal.Gen.shapeCasts_S2_S1x2 c)

/-- The reference's result is the kernel program's, as functions of the arguments. -/
theorem result_eq : val_main_v64 (F := Ideal) x0 x1 x2 x3 x4 x5 x6 = result x0 x1 x2 x3 x4 x5 x6 := by
  rw [stage2, agg1, stage1, agg0, stage0]
  rfl

end Cert.Bridge

end
-- ==== Proof.lean ====
/-
  A two-layer graph convolution with a row softmax, three tiled dense stages among host gathers and sums, against its
  whole-array reference, at the ideal values.

  Both programs compute, for every node, the reciprocal square roots of its out- and in-degree (at least one) as two
  scales; then twice: a dense stage on all rows, a gather of the source node's row for every edge, and a sum of the
  gathered rows into the destination nodes' rows; and a last dense stage. The dense stages are
      (X · W1)[r, ·] · s[r],      (relu(A[r, ·] · d[r] + b1) · W2) · s[r],      softmax_row(A[r, ·] · d[r] + b2).
  The kernel program computes each on 50 blocks of 2000 rows, the reference on all 100000 rows at once; a block of rows
  of a dense stage depends only on the same rows of its operands, and the blocks tile the rows, so the results agree
  entry by entry (matrix products as sums of products in both, no law beyond reading each entry). The host operations in
  between are the same in both programs. The idealization rewrote nothing, so that conjunct is trivial. The frames are
  the generated ones; the reference's frame is its run with the result dropped.
-/
import proofs.«139141_j43722767073362_2_alg».proof.Defs
import proofs.«139141_j43722767073362_2_alg».proof.Proof.Gen.Kernel
import proofs.«139141_j43722767073362_2_alg».proof.Proof.Gen.Kernel.Skeleton
import proofs.«139141_j43722767073362_2_alg».proof.Proof.Gen.Kernel.Launch
import proofs.«139141_j43722767073362_2_alg».proof.Proof.Gen.Kernel.Points
import proofs.«139141_j43722767073362_2_alg».proof.Proof.Gen.Kernel.Frame
import proofs.«139141_j43722767073362_2_alg».proof.Proof.Gen.KernelIdeal
import proofs.«139141_j43722767073362_2_alg».proof.Proof.Gen.KernelIdeal.Skeleton
import proofs.«139141_j43722767073362_2_alg».proof.Proof.Gen.KernelIdeal.Launch
import proofs.«139141_j43722767073362_2_alg».proof.Proof.Gen.KernelIdeal.Points
import proofs.«139141_j43722767073362_2_alg».proof.Proof.Gen.KernelIdeal.Frame
import proofs.«139141_j43722767073362_2_alg».proof.Proof.Gen.ReferenceIdeal
import proofs.«139141_j43722767073362_2_alg».proof.Proof.Gen.ReferenceIdeal.Run
import proofs.«139141_j43722767073362_2_alg».proof.Proof.Gen.ReferenceIdeal.Read
import proofs.«139141_j43722767073362_2_alg».proof.Proof.Gen.Pre_finite_inputs
import proofs.«139141_j43722767073362_2_alg».proof.Proof.KernelValue
import proofs.«139141_j43722767073362_2_alg».proof.Proof.Bridge
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.Value.run (F := Ideal) m ρ)

/-- From memories agreeing on the arguments both programs end with the same result array: the kernel program's run
    ends at the composition of its stages, the reference's at its own composed term, and the two are one function of the
    arguments. -/
theorem algebraic : Cert.algebraic_KernelIdeal_ReferenceIdeal := by
  intro m ρ m' ρ' _ hagree
  refine ⟨fun c => Cert.KernelIdeal.Whole.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)),
    Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v64_eq, (hagree c).1, (hagree c).2.1, (hagree c).2.2.1, (hagree c).2.2.2.1,
    (hagree c).2.2.2.2.1, (hagree c).2.2.2.2.2.1, (hagree c).2.2.2.2.2.2]
  exact Cert.Bridge.result_eq _ _ _ _ _ _ _

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
